-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x784 : Shape := ⟨2, ![131072, 784]⟩
abbrev S131072x2 : Shape := ⟨2, ![131072, 2]⟩
abbrev S2x1 : Shape := ⟨2, ![2, 1]⟩
abbrev S100x784 : Shape := ⟨2, ![100, 784]⟩
abbrev S100 : Shape := ⟨1, ![100]⟩
abbrev S1x100 : Shape := ⟨2, ![1, 100]⟩
abbrev S1 : Shape := ⟨1, ![1]⟩
abbrev S2x2 : Shape := ⟨2, ![2, 2]⟩
abbrev S_ : Shape := ⟨0, ![]⟩

class Facts : Prop where
  bcast_S_S131072x784 : S_.BroadcastsInDim S131072x784 (![] : Fin 0 → Fin S131072x784.rank)
  reducesTo_S131072x784_S_d0_1 : S131072x784.ReducesTo [0, 1] S_
  h_S_ : 0 < S_.numel
  bcast_S_S131072x2 : S_.BroadcastsInDim S131072x2 (![] : Fin 0 → Fin S131072x2.rank)
  reducesTo_S131072x2_S_d0_1 : S131072x2.ReducesTo [0, 1] S_
  bcast_S_S2x1 : S_.BroadcastsInDim S2x1 (![] : Fin 0 → Fin S2x1.rank)
  reducesTo_S2x1_S_d0_1 : S2x1.ReducesTo [0, 1] S_
  bcast_S_S100x784 : S_.BroadcastsInDim S100x784 (![] : Fin 0 → Fin S100x784.rank)
  reducesTo_S100x784_S_d0_1 : S100x784.ReducesTo [0, 1] S_
  bcast_S_S100 : S_.BroadcastsInDim S100 (![] : Fin 0 → Fin S100.rank)
  reducesTo_S100_S_d0 : S100.ReducesTo [0] S_
  bcast_S_S1x100 : S_.BroadcastsInDim S1x100 (![] : Fin 0 → Fin S1x100.rank)
  reducesTo_S1x100_S_d0_1 : S1x100.ReducesTo [0, 1] S_
  bcast_S_S1 : S_.BroadcastsInDim S1 (![] : Fin 0 → Fin S1.rank)
  reducesTo_S1_S_d0 : S1.ReducesTo [0] S_
  bcast_S_S2x2 : S_.BroadcastsInDim S2x2 (![] : Fin 0 → Fin S2x2.rank)
  reducesTo_S2x2_S_d0_1 : S2x2.ReducesTo [0, 1] S_

variable [Facts]

def fn_part2 {F : FTy → Type} [FloatOps F] (main_arg7 : FVec F S2x2 .f32) (main_v33 : IVec S_ 1) : IVec S_ 1 :=
  let main_v34 : FVec F S2x2 .f32 := Host.absf main_arg7
  let main_cst_12 : FVec F S_ .f32 := constant S_ .f32 0x7F800000#32
  let main_v35 : FVec F S2x2 .f32 := broadcastInDim S2x2 ![] bcast_S_S2x2 main_cst_12
  let main_v36 : IVec S2x2 1 := cmpf .olt main_v34 main_v35
  let main_c_13 : IVec S_ 1 := constantI S_ 1 1#1
  let main_v37 : IVec S_ 1 := (fun x v => Host.reduce IntOp.andi x v reducesTo_S2x2_S_d0_1 h_S_) main_v36 main_c_13
  let main_v38 : IVec S_ 1 := andi main_v33 main_v37
  main_v38

def fn_part1 {F : FTy → Type} [FloatOps F] (main_arg4 : FVec F S100 .f32) (main_arg5 : FVec F S1x100 .f32) (main_arg6 : FVec F S1 .f32) (main_arg7 : FVec F S2x2 .f32) (main_v13 : IVec S_ 1) (main_v16 : IVec S100x784 1) : IVec S_ 1 :=
  let main_c_5 : IVec S_ 1 := constantI S_ 1 1#1
  let main_v17 : IVec S_ 1 := (fun x v => Host.reduce IntOp.andi x v reducesTo_S100x784_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S1x100 .f32 := Host.absf main_arg5
  let main_cst_8 : FVec F S_ .f32 := constant S_ .f32 0x7F800000#32
  let main_v25 : FVec F S1x100 .f32 := broadcastInDim S1x100 ![] bcast_S_S1x100 main_cst_8
  let main_v26 : IVec S1x100 1 := cmpf .olt main_v24 main_v25
  let main_c_9 : IVec S_ 1 := constantI S_ 1 1#1
  let main_v27 : IVec S_ 1 := (fun x v => Host.reduce IntOp.andi x v reducesTo_S1x100_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_v33

def fn {F : FTy → Type} [FloatOps F] (main_arg0 : FVec F S131072x784 .f32) (main_arg1 : FVec F S131072x2 .f32) (main_arg2 : FVec F S2x1 .f32) (main_arg3 : FVec F S100x784 .f32) (main_arg4 : FVec F S100 .f32) (main_arg5 : FVec F S1x100 .f32) (main_arg6 : FVec F S1 .f32) (main_arg7 : FVec F S2x2 .f32) : IVec S_ 1 :=
  let main_v0 : FVec F S131072x784 .f32 := Host.absf main_arg0
  let main_cst : FVec F S_ .f32 := constant S_ .f32 0x7F800000#32
  let main_v1 : FVec F S131072x784 .f32 := broadcastInDim S131072x784 ![] bcast_S_S131072x784 main_cst
  let main_v2 : IVec S131072x784 1 := cmpf .olt main_v0 main_v1
  let main_c : IVec S_ 1 := constantI S_ 1 1#1
  let main_v3 : IVec S_ 1 := (fun x v => Host.reduce IntOp.andi x v reducesTo_S131072x784_S_d0_1 h_S_) main_v2 main_c
  let main_v4 : FVec F S131072x2 .f32 := Host.absf main_arg1
  let main_cst_0 : FVec F S_ .f32 := constant S_ .f32 0x7F800000#32
  let main_v5 : FVec F S131072x2 .f32 := broadcastInDim S131072x2 ![] bcast_S_S131072x2 main_cst_0
  let main_v6 : IVec S131072x2 1 := cmpf .olt main_v4 main_v5
  let main_c_1 : IVec S_ 1 := constantI S_ 1 1#1
  let main_v7 : IVec S_ 1 := (fun x v => Host.reduce IntOp.andi x v reducesTo_S131072x2_S_d0_1 h_S_) main_v6 main_c_1
  let main_v8 : IVec S_ 1 := andi main_v3 main_v7
  let main_v9 : FVec F S2x1 .f32 := Host.absf main_arg2
  let main_cst_2 : FVec F S_ .f32 := constant S_ .f32 0x7F800000#32
  let main_v10 : FVec F S2x1 .f32 := broadcastInDim S2x1 ![] bcast_S_S2x1 main_cst_2
  let main_v11 : IVec S2x1 1 := cmpf .olt main_v9 main_v10
  let main_c_3 : IVec S_ 1 := constantI S_ 1 1#1
  let main_v12 : IVec S_ 1 := (fun x v => Host.reduce IntOp.andi x v reducesTo_S2x1_S_d0_1 h_S_) main_v11 main_c_3
  let main_v13 : IVec S_ 1 := andi main_v8 main_v12
  let main_v14 : FVec F S100x784 .f32 := Host.absf main_arg3
  let main_cst_4 : FVec F S_ .f32 := constant S_ .f32 0x7F800000#32
  let main_v15 : FVec F S100x784 .f32 := broadcastInDim S100x784 ![] bcast_S_S100x784 main_cst_4
  let main_v16 : IVec S100x784 1 := cmpf .olt main_v14 main_v15
  fn_part1 (F := F) main_arg4 main_arg5 main_arg6 main_arg7 main_v13 main_v16
-- ==== Kernel.lean ====
abbrev S131072x784 : Shape := ⟨2, ![131072, 784]⟩
abbrev S131072x2 : Shape := ⟨2, ![131072, 2]⟩
abbrev S2x1 : Shape := ⟨2, ![2, 1]⟩
abbrev S100x784 : Shape := ⟨2, ![100, 784]⟩
abbrev S100 : Shape := ⟨1, ![100]⟩
abbrev S1x100 : Shape := ⟨2, ![1, 100]⟩
abbrev S1 : Shape := ⟨1, ![1]⟩
abbrev S2x2 : Shape := ⟨2, ![2, 2]⟩
abbrev S_ : Shape := ⟨0, ![]⟩
abbrev S1x2 : Shape := ⟨2, ![1, 2]⟩
abbrev S784x100 : Shape := ⟨2, ![784, 100]⟩
abbrev S100x1 : Shape := ⟨2, ![100, 1]⟩
abbrev S1x1 : Shape := ⟨2, ![1, 1]⟩
abbrev S2x1x1 : Shape := ⟨3, ![2, 1, 1]⟩
abbrev S2048x784 : Shape := ⟨2, ![2048, 784]⟩
abbrev S2048x2 : Shape := ⟨2, ![2048, 2]⟩
abbrev S1x1x1 : Shape := ⟨3, ![1, 1, 1]⟩
abbrev S2048x100 : Shape := ⟨2, ![2048, 100]⟩
abbrev S2048x1 : Shape := ⟨2, ![2048, 1]⟩
abbrev S2048 : Shape := ⟨1, ![2048]⟩

abbrev nBuf : Space → Nat
  | .hbm => 36
  | .vmem => 13
  | .smem => 0
  | _ => 0

abbrev bufTy : (tb : Table) → Fin (tcTables nBuf tb) → BufTy
  | .hbm, ⟨0, _⟩ => ⟨S131072x784, .f32⟩
  | .hbm, ⟨1, _⟩ => ⟨S131072x2, .f32⟩
  | .hbm, ⟨2, _⟩ => ⟨S2x1, .f32⟩
  | .hbm, ⟨3, _⟩ => ⟨S100x784, .f32⟩
  | .hbm, ⟨4, _⟩ => ⟨S100, .f32⟩
  | .hbm, ⟨5, _⟩ => ⟨S1x100, .f32⟩
  | .hbm, ⟨6, _⟩ => ⟨S1, .f32⟩
  | .hbm, ⟨7, _⟩ => ⟨S2x2, .f32⟩
  | .hbm, ⟨8, _⟩ => ⟨S2x1, .f32⟩
  | .hbm, ⟨9, _⟩ => ⟨S_, .f32⟩
  | .hbm, ⟨10, _⟩ => ⟨S_, .f32⟩
  | .hbm, ⟨11, _⟩ => ⟨S2x1, .f32⟩
  | .hbm, ⟨12, _⟩ => ⟨S1x2, .f32⟩
  | .hbm, ⟨13, _⟩ => ⟨S784x100, .f32⟩
  | .hbm, ⟨14, _⟩ => ⟨S784x100, .bf16⟩
  | .hbm, ⟨15, _⟩ => ⟨S100x1, .f32⟩
  | .hbm, ⟨16, _⟩ => ⟨S100x1, .bf16⟩
  | .hbm, ⟨17, _⟩ => ⟨S1x100, .f32⟩
  | .hbm, ⟨18, _⟩ => ⟨S1x1, .f32⟩
  | .hbm, ⟨19, _⟩ => ⟨S2x1x1, .f32⟩
  | .hbm, ⟨20, _⟩ => ⟨S2x1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S2048x784, .f32⟩
  | .local _ .vmem, ⟨1, _⟩ => ⟨S2048x784, .f32⟩
  | .local _ .vmem, ⟨2, _⟩ => ⟨S2048x2, .f32⟩
  | .local _ .vmem, ⟨3, _⟩ => ⟨S2048x2, .f32⟩
  | .local _ .vmem, ⟨4, _⟩ => ⟨S784x100, .bf16⟩
  | .local _ .vmem, ⟨5, _⟩ => ⟨S1x100, .f32⟩
  | .local _ .vmem, ⟨6, _⟩ => ⟨S100x1, .bf16⟩
  | .local _ .vmem, ⟨7, _⟩ => ⟨S1x1, .f32⟩
  | .local _ .vmem, ⟨8, _⟩ => ⟨S1x2, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | _, _ => ⟨S131072x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S784x100 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S100x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  reducesTo_S2x1_S_d0_1 : S2x1.ReducesTo [0, 1] S_
  h_S_ : 0 < S_.numel
  transposes_S2x1_S1x2_1_0 : S2x1.Transposes [1, 0] S1x2
  transposes_S100x784_S784x100_1_0 : S100x784.Transposes [1, 0] S784x100
  bitsLt_bf16_f32 : FTy.bits .bf16 < FTy.bits .f32
  transposes_S1x100_S100x1_1_0 : S1x100.Transposes [1, 0] S100x1
  shapeCasts_S100_S1x100 : S100.ShapeCasts S1x100
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2048x784_S2048x784_0_0 : ∀ a, (![0, 0] : Fin 2 → Nat) a + S2048x784.size a ≤ S2048x784.size a
  h_S2048x784 : 0 < S2048x784.numel
  inb_S2048x2_S2048x2_0_0 : ∀ a, (![0, 0] : Fin 2 → Nat) a + S2048x2.size a ≤ S2048x2.size a
  h_S2048x2 : 0 < S2048x2.numel
  inb_S784x100_S784x100_0_0 : ∀ a, (![0, 0] : Fin 2 → Nat) a + S784x100.size a ≤ S784x100.size a
  h_S784x100 : 0 < S784x100.numel
  shapeCasts_S784x100_S784x100 : S784x100.ShapeCasts S784x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x100_S2048x100 : S1x100.Broadcasts S2048x100
  broadcasts_S1x1_S2048x1 : S1x1.Broadcasts S2048x1
  broadcasts_S1x2_S2048x2 : S1x2.Broadcasts S2048x2
  reduces_S2048x2_S2048 : S2048x2.Reduces [1] S2048
  shapeCasts_S2048_S2048x1 : S2048.ShapeCasts S2048x1
  reduces_S2048x1_S1 : S2048x1.Reduces [0] S1
  reducesTo_S2x1x1_S_d0_1_2 : S2x1x1.ReducesTo [0, 1, 2] S_
  dot_S2x2_S2x1_S2x1_1_0_0_1_n_n_wf : DotDims.WF S2x2 S2x1 S2x1 [1] [0] [0] [1] [] []
  dot_S2048x784_S784x100_S2048x100_1_0_0_1_n_n_wf : DotDims.WF S2048x784 S784x100 S2048x100 [1] [0] [0] [1] [] []
  dot_S2048x100_S100x1_S2048x1_1_0_0_1_n_n_wf : DotDims.WF S2048x100 S100x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S131072x784.size a
  hwx0_0 : ∀ i : grid0.Coords, EltTy.bits .f32 = 32 ∨ (Rect.block (s := S131072x784) S2048x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S131072x2.size a
  hwx0_1 : ∀ i : grid0.Coords, EltTy.bits .f32 = 32 ∨ (Rect.block (s := S131072x2) S2048x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x100.size a ≤ S784x100.size a
  hwx0_2 : ∀ i : grid0.Coords, EltTy.bits .bf16 = 32 ∨ (Rect.block (s := S784x100) S784x100.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x1.size a ≤ S100x1.size a
  hwx0_4 : ∀ i : grid0.Coords, EltTy.bits .bf16 = 32 ∨ (Rect.block (s := S100x1) S100x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S2x1x1.size a
  hwx0_8 : ∀ i : grid0.Coords, EltTy.bits .f32 = 32 ∨ (Rect.block (s := S2x1x1) S1x1x1.size (cc0_transform_8 i) (hinb0_8 i)).WholeWords (EltTy.packing .f32)

variable [Facts₀]

def dot_S2x2_S2x1_S2x1_1_0_0_1_n_n : DotDims S2x2 S2x1 S2x1 where
  lhsContracting := [1]
  rhsContracting := [0]
  lhsNonContracting := [0]
  rhsNonContracting := [1]
  lhsBatch := []
  rhsBatch := []
  wf := dot_S2x2_S2x1_S2x1_1_0_0_1_n_n_wf
def dot_S2048x784_S784x100_S2048x100_1_0_0_1_n_n : DotDims S2048x784 S784x100 S2048x100 where
  lhsContracting := [1]
  rhsContracting := [0]
  lhsNonContracting := [0]
  rhsNonContracting := [1]
  lhsBatch := []
  rhsBatch := []
  wf := dot_S2048x784_S784x100_S2048x100_1_0_0_1_n_n_wf
def dot_S2048x100_S100x1_S2048x1_1_0_0_1_n_n : DotDims S2048x100 S100x1 S2048x1 where
  lhsContracting := [1]
  rhsContracting := [0]
  lhsNonContracting := [0]
  rhsNonContracting := [1]
  lhsBatch := []
  rhsBatch := []
  wf := dot_S2048x100_S100x1_S2048x1_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S784x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S100x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x784 : Shape := ⟨2, ![131072, 784]⟩
abbrev S131072x2 : Shape := ⟨2, ![131072, 2]⟩
abbrev S2x1 : Shape := ⟨2, ![2, 1]⟩
abbrev S100x784 : Shape := ⟨2, ![100, 784]⟩
abbrev S100 : Shape := ⟨1, ![100]⟩
abbrev S1x100 : Shape := ⟨2, ![1, 100]⟩
abbrev S1 : Shape := ⟨1, ![1]⟩
abbrev S2x2 : Shape := ⟨2, ![2, 2]⟩
abbrev S784x100 : Shape := ⟨2, ![784, 100]⟩
abbrev S131072x100 : Shape := ⟨2, ![131072, 100]⟩
abbrev S_ : Shape := ⟨0, ![]⟩
abbrev S100x1 : Shape := ⟨2, ![100, 1]⟩
abbrev S131072x1 : Shape := ⟨2, ![131072, 1]⟩
abbrev S1x1 : Shape := ⟨2, ![1, 1]⟩
abbrev S131072 : Shape := ⟨1, ![131072]⟩

abbrev nBuf : Space → Nat
  | .hbm => 53
  | .vmem => 0
  | .smem => 0
  | _ => 0

abbrev bufTy : (tb : Table) → Fin (tcTables nBuf tb) → BufTy
  | .hbm, ⟨0, _⟩ => ⟨S131072x784, .f32⟩
  | .hbm, ⟨1, _⟩ => ⟨S131072x2, .f32⟩
  | .hbm, ⟨2, _⟩ => ⟨S2x1, .f32⟩
  | .hbm, ⟨3, _⟩ => ⟨S100x784, .f32⟩
  | .hbm, ⟨4, _⟩ => ⟨S100, .f32⟩
  | .hbm, ⟨5, _⟩ => ⟨S1x100, .f32⟩
  | .hbm, ⟨6, _⟩ => ⟨S1, .f32⟩
  | .hbm, ⟨7, _⟩ => ⟨S2x2, .f32⟩
  | .hbm, ⟨8, _⟩ => ⟨S784x100, .f32⟩
  | .hbm, ⟨9, _⟩ => ⟨S131072x100, .f32⟩
  | .hbm, ⟨10, _⟩ => ⟨S1x100, .f32⟩
  | .hbm, ⟨11, _⟩ => ⟨S131072x100, .f32⟩
  | .hbm, ⟨12, _⟩ => ⟨S131072x100, .f32⟩
  | .hbm, ⟨13, _⟩ => ⟨S_, .f32⟩
  | .hbm, ⟨14, _⟩ => ⟨S131072x100, .f32⟩
  | .hbm, ⟨15, _⟩ => ⟨S131072x100, .f32⟩
  | .hbm, ⟨16, _⟩ => ⟨S100x1, .f32⟩
  | .hbm, ⟨17, _⟩ => ⟨S131072x1, .f32⟩
  | .hbm, ⟨18, _⟩ => ⟨S1x1, .f32⟩
  | .hbm, ⟨19, _⟩ => ⟨S131072x1, .f32⟩
  | .hbm, ⟨20, _⟩ => ⟨S131072x1, .f32⟩
  | .hbm, ⟨21, _⟩ => ⟨S131072x1, .f32⟩
  | .hbm, ⟨22, _⟩ => ⟨S131072x1, .f32⟩
  | .hbm, ⟨23, _⟩ => ⟨S_, .f32⟩
  | .hbm, ⟨24, _⟩ => ⟨S131072x1, .f32⟩
  | .hbm, ⟨25, _⟩ => ⟨S131072x1, .f32⟩
  | .hbm, ⟨26, _⟩ => ⟨S_, .f32⟩
  | .hbm, ⟨27, _⟩ => ⟨S131072x1, .f32⟩
  | .hbm, ⟨28, _⟩ => ⟨S131072x1, .f32⟩
  | .hbm, ⟨29, _⟩ => ⟨S131072, .f32⟩
  | .hbm, ⟨30, _⟩ => ⟨S2x1, .f32⟩
  | .hbm, ⟨31, _⟩ => ⟨S_, .f32⟩
  | .hbm, ⟨32, _⟩ => ⟨S_, .f32⟩
  | .hbm, ⟨33, _⟩ => ⟨S2x1, .f32⟩
  | .hbm, ⟨34, _⟩ => ⟨S131072x1, .f32⟩
  | .hbm, ⟨35, _⟩ => ⟨S131072, .f32⟩
  | .hbm, ⟨36, _⟩ => ⟨S131072, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S131072, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S131072x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  transposes_S100x784_S784x100_1_0 : S100x784.Transposes [1, 0] S784x100
  bcast_S100_S1x100_1 : S100.BroadcastsInDim S1x100 (![1] : Fin 1 → Fin S1x100.rank)
  bcast_S1x100_S131072x100_0_1 : S1x100.BroadcastsInDim S131072x100 (![0, 1] : Fin 2 → Fin S131072x100.rank)
  bcast_S_S131072x100 : S_.BroadcastsInDim S131072x100 (![] : Fin 0 → Fin S131072x100.rank)
  transposes_S1x100_S100x1_1_0 : S1x100.Transposes [1, 0] S100x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  shapeCasts_S131072x1_S131072 : S131072x1.ShapeCasts S131072
  reducesTo_S2x1_S_d0_1 : S2x1.ReducesTo [0, 1] S_
  h_S_ : 0 < S_.numel
  reducesTo_S131072_S_d0 : S131072.ReducesTo [0] S_
  dot_S131072x784_S784x100_S131072x100_1_0_0_1_n_n_wf : DotDims.WF S131072x784 S784x100 S131072x100 [1] [0] [0] [1] [] []
  dot_S131072x100_S100x1_S131072x1_1_0_0_1_n_n_wf : DotDims.WF S131072x100 S100x1 S131072x1 [1] [0] [0] [1] [] []
  dot_S2x2_S2x1_S2x1_1_0_0_1_n_n_wf : DotDims.WF S2x2 S2x1 S2x1 [1] [0] [0] [1] [] []
  dot_S131072x2_S2x1_S131072x1_1_0_0_1_n_n_wf : DotDims.WF S131072x2 S2x1 S131072x1 [1] [0] [0] [1] [] []

variable [Facts₀]

def dot_S131072x784_S784x100_S131072x100_1_0_0_1_n_n : DotDims S131072x784 S784x100 S131072x100 where
  lhsContracting := [1]
  rhsContracting := [0]
  lhsNonContracting := [0]
  rhsNonContracting := [1]
  lhsBatch := []
  rhsBatch := []
  wf := dot_S131072x784_S784x100_S131072x100_1_0_0_1_n_n_wf
def dot_S131072x100_S100x1_S131072x1_1_0_0_1_n_n : DotDims S131072x100 S100x1 S131072x1 where
  lhsContracting := [1]
  rhsContracting := [0]
  lhsNonContracting := [0]
  rhsNonContracting := [1]
  lhsBatch := []
  rhsBatch := []
  wf := dot_S131072x100_S100x1_S131072x1_1_0_0_1_n_n_wf
def dot_S2x2_S2x1_S2x1_1_0_0_1_n_n : DotDims S2x2 S2x1 S2x1 where
  lhsContracting := [1]
  rhsContracting := [0]
  lhsNonContracting := [0]
  rhsNonContracting := [1]
  lhsBatch := []
  rhsBatch := []
  wf := dot_S2x2_S2x1_S2x1_1_0_0_1_n_n_wf
def dot_S131072x2_S2x1_S131072x1_1_0_0_1_n_n : DotDims S131072x2 S2x1 S131072x1 where
  lhsContracting := [1]
  rhsContracting := [0]
  lhsNonContracting := [0]
  rhsNonContracting := [1]
  lhsBatch := []
  rhsBatch := []
  wf := dot_S131072x2_S2x1_S131072x1_1_0_0_1_n_n_wf

class Facts : Prop extends Facts₀ where

variable [Facts]
-- ==== Proof.KPieces.lean ====
/-
  What one grid step leaves in the two one-element accumulator blocks, read as values.

  Each output block of the kernel holds ONE number per core. A grid step first computes, from its tile of
  2048 rows, two local sums (the sum of the squared predictions and the sum of the predictions times the
  projected sensitive attribute); then it adds each local sum to what the accumulator block holds. On the
  first step of a core's sweep (inner grid coordinate 0) the block is first reset to zero, so the step
  leaves  0 + local;  on every other step it leaves  previous + local.
-/
import proofs.«127067_j75402445849094_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces

open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a sweep, first accumulator: the reset stores zero, the step reads it back and adds the
    tile's sum of squared predictions. -/
theorem out_A7 (c : Dev nD) (i : grid0.Coords) (a2 : Memref sig .tc .vmem S2048x784 .f32) (h2 : a2.IsWhole) (a3 : Memref sig .tc .vmem S2048x2 .f32) (h3 : a3.IsWhole) (a4 : Memref sig .tc .vmem S784x100 .bf16) (h4 : a4.IsWhole) (a5 : Memref sig .tc .vmem S1x100 .f32) (h5 : a5.IsWhole) (a6 : Memref sig .tc .vmem S100x1 .bf16) (h6 : a6.IsWhole) (a7 : Memref sig .tc .vmem S1x1 .f32) (h7 : a7.IsWhole) (a8 : Memref sig .tc .vmem S1x2 .f32) (h8 : a8.IsWhole) (a9 : Memref sig .tc .vmem S1x1x1 .f32) (h9 : a9.IsWhole) (a10 : Memref sig .tc .vmem S1x1x1 .f32) (h10 : a10.IsWhole) (hc : cond0_0 i) (x0 : Vec F S2048x784 .f32) (x1 : Vec F S2048x2 .f32) (x2 : Vec F S784x100 .bf16) (x3 : Vec F S1x100 .f32) (x4 : Vec F S100x1 .bf16) (x5 : Vec F S1x1 .f32) (x6 : Vec F S1x2 .f32) :
    out0_A_7 c i a2 h2 a3 h3 a4 h4 a5 h5 a6 h6 a7 h7 a8 h8 a9 h9 a10 h10 hc x0 x1 x2 x3 x4 x5 x6 = k0_pay1 (k0_pay6 x0 x2 x3 x4 x5) (k0_pay3 (F := F)) := by
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread, h10.read_unread,
    View.ld_unit_zero (S := S2048x784) hz2, View.ld_unit_zero (S := S2048x2) hz2, View.ld_unit_zero (S := S784x100) hz2, View.ld_unit_zero (S := S1x100) hz2,
    View.ld_unit_zero (S := S100x1) hz2, View.ld_unit_zero (S := S1x1) hz2, View.ld_unit_zero (S := S1x2) hz2, View.ld_unit_zero (S := S1x1x1) hz3]

/-- First step of a sweep, second accumulator: zero plus the tile's sum of prediction times projected attribute. -/
theorem out_A8 (c : Dev nD) (i : grid0.Coords) (a2 : Memref sig .tc .vmem S2048x784 .f32) (h2 : a2.IsWhole) (a3 : Memref sig .tc .vmem S2048x2 .f32) (h3 : a3.IsWhole) (a4 : Memref sig .tc .vmem S784x100 .bf16) (h4 : a4.IsWhole) (a5 : Memref sig .tc .vmem S1x100 .f32) (h5 : a5.IsWhole) (a6 : Memref sig .tc .vmem S100x1 .bf16) (h6 : a6.IsWhole) (a7 : Memref sig .tc .vmem S1x1 .f32) (h7 : a7.IsWhole) (a8 : Memref sig .tc .vmem S1x2 .f32) (h8 : a8.IsWhole) (a9 : Memref sig .tc .vmem S1x1x1 .f32) (h9 : a9.IsWhole) (a10 : Memref sig .tc .vmem S1x1x1 .f32) (h10 : a10.IsWhole) (hc : cond0_0 i) (x0 : Vec F S2048x784 .f32) (x1 : Vec F S2048x2 .f32) (x2 : Vec F S784x100 .bf16) (x3 : Vec F S1x100 .f32) (x4 : Vec F S100x1 .bf16) (x5 : Vec F S1x1 .f32) (x6 : Vec F S1x2 .f32) :
    out0_A_8 c i a2 h2 a3 h3 a4 h4 a5 h5 a6 h6 a7 h7 a8 h8 a9 h9 a10 h10 hc x0 x1 x2 x3 x4 x5 x6 = k0_pay2 (k0_pay7 x0 x1 x2 x3 x4 x5 x6) (k0_pay4 (F := F)) := by
  unfold out0_A_8
  rw [View.read_writes_eq_canon _ _ _ (cover0_A_8 c i a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread, h10.read_unread,
    View.ld_unit_zero (S := S2048x784) hz2, View.ld_unit_zero (S := S2048x2) hz2, View.ld_unit_zero (S := S784x100) hz2, View.ld_unit_zero (S := S1x100) hz2,
    View.ld_unit_zero (S := S100x1) hz2, View.ld_unit_zero (S := S1x1) hz2, View.ld_unit_zero (S := S1x2) hz2, View.ld_unit_zero (S := S1x1x1) hz3]

/-- A later step, first accumulator: what the block held plus the tile's sum of squared predictions. -/
theorem out_B7 (c : Dev nD) (i : grid0.Coords) (a2 : Memref sig .tc .vmem S2048x784 .f32) (h2 : a2.IsWhole) (a3 : Memref sig .tc .vmem S2048x2 .f32) (h3 : a3.IsWhole) (a4 : Memref sig .tc .vmem S784x100 .bf16) (h4 : a4.IsWhole) (a5 : Memref sig .tc .vmem S1x100 .f32) (h5 : a5.IsWhole) (a6 : Memref sig .tc .vmem S100x1 .bf16) (h6 : a6.IsWhole) (a7 : Memref sig .tc .vmem S1x1 .f32) (h7 : a7.IsWhole) (a8 : Memref sig .tc .vmem S1x2 .f32) (h8 : a8.IsWhole) (a9 : Memref sig .tc .vmem S1x1x1 .f32) (h9 : a9.IsWhole) (a10 : Memref sig .tc .vmem S1x1x1 .f32) (h10 : a10.IsWhole) (hc : ¬cond0_0 i) (x0 : Vec F S2048x784 .f32) (x1 : Vec F S2048x2 .f32) (x2 : Vec F S784x100 .bf16) (x3 : Vec F S1x100 .f32) (x4 : Vec F S100x1 .bf16) (x5 : Vec F S1x1 .f32) (x6 : Vec F S1x2 .f32) (xo7 xo8 : Vec F S1x1x1 .f32) :
    out0_B_7 c i a2 h2 a3 h3 a4 h4 a5 h5 a6 h6 a7 h7 a8 h8 a9 h9 a10 h10 hc x0 x1 x2 x3 x4 x5 x6 xo7 xo8 = k0_pay1 (k0_pay6 x0 x2 x3 x4 x5) xo7 := by
  unfold out0_B_7
  rw [View.read_writes_eq_canon _ _ _ (cover0_B_7 c i a2 h2 a3 h3 a4 h4 a5 h5 a6 h6 a7 h7 a8 h8 a9 h9 a10 h10 hc x0 x1 x2 x3 x4 x5 x6 xo7 xo8)]
  unfold kernelRun0_B
  dsimp only
  sl_unfold_words
  rw [View.canon_unit_zero (S := S1x1x1) hz3]
  simp only [View.readAt_eq_ld, h2.read_unread, h3.read_unread, h4.read_unread, h5.read_unread, h6.read_unread, h7.read_unread, h8.read_unread, h9.read_unread, h10.read_unread,
    View.ld_unit_zero (S := S2048x784) hz2, View.ld_unit_zero (S := S2048x2) hz2, View.ld_unit_zero (S := S784x100) hz2, View.ld_unit_zero (S := S1x100) hz2,
    View.ld_unit_zero (S := S100x1) hz2, View.ld_unit_zero (S := S1x1) hz2, View.ld_unit_zero (S := S1x2) hz2, View.ld_unit_zero (S := S1x1x1) hz3]

/-- A later step, second accumulator: what the block held plus the tile's second local sum. -/
theorem out_B8 (c : Dev nD) (i : grid0.Coords) (a2 : Memref sig .tc .vmem S2048x784 .f32) (h2 : a2.IsWhole) (a3 : Memref sig .tc .vmem S2048x2 .f32) (h3 : a3.IsWhole) (a4 : Memref sig .tc .vmem S784x100 .bf16) (h4 : a4.IsWhole) (a5 : Memref sig .tc .vmem S1x100 .f32) (h5 : a5.IsWhole) (a6 : Memref sig .tc .vmem S100x1 .bf16) (h6 : a6.IsWhole) (a7 : Memref sig .tc .vmem S1x1 .f32) (h7 : a7.IsWhole) (a8 : Memref sig .tc .vmem S1x2 .f32) (h8 : a8.IsWhole) (a9 : Memref sig .tc .vmem S1x1x1 .f32) (h9 : a9.IsWhole) (a10 : Memref sig .tc .vmem S1x1x1 .f32) (h10 : a10.IsWhole) (hc : ¬cond0_0 i) (x0 : Vec F S2048x784 .f32) (x1 : Vec F S2048x2 .f32) (x2 : Vec F S784x100 .bf16) (x3 : Vec F S1x100 .f32) (x4 : Vec F S100x1 .bf16) (x5 : Vec F S1x1 .f32) (x6 : Vec F S1x2 .f32) (xo7 xo8 : Vec F S1x1x1 .f32) :
    out0_B_8 c i a2 h2 a3 h3 a4 h4 a5 h5 a6 h6 a7 h7 a8 h8 a9 h9 a10 h10 hc x0 x1 x2 x3 x4 x5 x6 xo7 xo8 = k0_pay2 (k0_pay7 x0 x1 x2 x3 x4 x5 x6) xo8 := by
  unfold out0_B_8
  rw [View.read_writes_eq_canon _ _ _ (cover0_B_8 c i a2 h2 a3 h3 a4 h4 a5 h5 a6 h6 a7 h7 a8 h8 a9 h9 a10 h10 hc x0 x1 x2 x3 x4 x5 x6 xo7 xo8)]
  unfold kernelRun0_B
  dsimp only
  sl_unfold_words
  rw [View.canon_unit_zero (S := S1x1x1) hz3]
  simp only [View.readAt_eq_ld, h2.read_unread, h3.read_unread, h4.read_unread, h5.read_unread, h6.read_unread, h7.read_unread, h8.read_unread, h9.read_unread, h10.read_unread,
    View.ld_unit_zero (S := S2048x784) hz2, View.ld_unit_zero (S := S2048x2) hz2, View.ld_unit_zero (S := S784x100) hz2, View.ld_unit_zero (S := S1x100) hz2,
    View.ld_unit_zero (S := S100x1) hz2, View.ld_unit_zero (S := S1x1) hz2, View.ld_unit_zero (S := S1x2) hz2, View.ld_unit_zero (S := S1x1x1) hz3]

end Cert.KernelIdeal.Pieces
end
-- ==== Proof.KBlocks.lean ====
/-
  What each operand block of a grid step holds, in terms of the argument arrays.

  Step `t` (0 ≤ t < 64, the two cores' sweeps laid end to end) stages rows 2048 t … 2048 t + 2047 of the
  feature matrix and of the sensitive-attribute matrix; the five small operands are staged whole at every
  step. The small operands are arrays the host prepared before the launch: the first layer's weights
  transposed, the second layer's weights transposed, the two biases reshaped to rows, and the row (P W)ᵀ.
-/
import proofs.«127067_j75402445849094_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section
open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen
variable {F : FTy → Type} [FloatOps F]
variable (m : (ℓ : Loc nD τ sig) → Buf (Elt F) ℓ)

/-- The block index of every window at every step: the two streamed inputs move one tile of rows per
    step, the small operands stay at block (0, 0), and each output's block is the core's, `t / 32`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 32 ∧ win0_7.index t (1 : Fin 3) = 0 ∧ win0_7.index t (2 : Fin 3) = 0
    ∧ win0_8.index t (0 : Fin 3) = t.val / 32 ∧ win0_8.index t (1 : Fin 3) = 0 ∧ win0_8.index t (2 : Fin 3) = 0 :=
  (by decide +kernel : ∀ t : Fin grid0.N, _)

/-- Row `r` of step `t`'s feature tile is row `2048 t + r` of the feature matrix. -/
theorem iblk0_apply (c : Dev nD) (t : Fin cfg0.N) (r : Fin 2048) (d : Fin 784) (hb : 2048 * t.val + r.val < 131072) :
    (iblk m c 0 t : Vec F S2048x784 .f32) (ix2 r d) = m ((c : Thread nD τ).loc main_arg0) (ix2 ⟨2048 * t.val + r.val, hb⟩ d) := by
  obtain ⟨e0, e1, -⟩ := idx_facts t
  unfold iblk
  rw [View.read_apply]
  show V m c main_arg0 _ = m (c.tc.loc main_arg0) _
  rw [V_main_arg0]
  refine congrArg _ ?_
  funext a; apply Fin.ext
  match a with
  | ⟨0, _⟩ => show win0_0.index t (0 : Fin 2) * 2048 + 1 * r.val = 2048 * t.val + r.val; rw [e0]; omega
  | ⟨1, _⟩ => show win0_0.index t (1 : Fin 2) * 784 + 1 * d.val = d.val; rw [e1]; omega

/-- Row `r` of step `t`'s attribute tile is row `2048 t + r` of the attribute matrix. -/
theorem iblk1_apply (c : Dev nD) (t : Fin cfg0.N) (r : Fin 2048) (k : Fin 2) (hb : 2048 * t.val + r.val < 131072) :
    (iblk m c 1 t : Vec F S2048x2 .f32) (ix2 r k) = m ((c : Thread nD τ).loc main_arg1) (ix2 ⟨2048 * t.val + r.val, hb⟩ k) := by
  obtain ⟨-, -, e0, e1, -⟩ := idx_facts t
  unfold iblk
  rw [View.read_apply]
  show V m c main_arg1 _ = m (c.tc.loc main_arg1) _
  rw [V_main_arg1]
  refine congrArg _ ?_
  funext a; apply Fin.ext
  match a with
  | ⟨0, _⟩ => show win0_1.index t (0 : Fin 2) * 2048 + 1 * r.val = 2048 * t.val + r.val; rw [e0]; omega
  | ⟨1, _⟩ => show win0_1.index t (1 : Fin 2) * 2 + 1 * k.val = k.val; rw [e1]; omega

theorem iblk2_eq (c : Dev nD) (t : Fin cfg0.N) :
    (iblk m c 2 t : Vec F S784x100 .bf16) = V m c main_v5 := by
  obtain ⟨-, -, -, -, e0, e1, -⟩ := idx_facts t
  funext y
  unfold iblk
  rw [View.read_apply]
  show V m c main_v5 _ = V m c main_v5 y
  refine congrArg _ ?_
  funext a; apply Fin.ext
  match a with
  | ⟨0, _⟩ => show win0_2.index t (0 : Fin 2) * 784 + 1 * (y 0).val = (y 0).val; rw [e0]; omega
  | ⟨1, _⟩ => show win0_2.index t (1 : Fin 2) * 100 + 1 * (y 1).val = (y 1).val; rw [e1]; omega

theorem iblk3_eq (c : Dev nD) (t : Fin cfg0.N) :
    (iblk m c 3 t : Vec F S1x100 .f32) = V m c main_v8 := by
  obtain ⟨-, -, -, -, -, -, e0, e1, -⟩ := idx_facts t
  funext y
  unfold iblk
  rw [View.read_apply]
  show V m c main_v8 _ = V m c main_v8 y
  refine congrArg _ ?_
  funext a; apply Fin.ext
  match a with
  | ⟨0, _⟩ => show win0_3.index t (0 : Fin 2) * 1 + 1 * (y 0).val = (y 0).val; rw [e0]; omega
  | ⟨1, _⟩ => show win0_3.index t (1 : Fin 2) * 100 + 1 * (y 1).val = (y 1).val; rw [e1]; omega

theorem iblk4_eq (c : Dev nD) (t : Fin cfg0.N) :
    (iblk m c 4 t : Vec F S100x1 .bf16) = V m c main_v7 := by
  obtain ⟨-, -, -, -, -, -, -, -, e0, e1, -⟩ := idx_facts t
  funext y
  unfold iblk
  rw [View.read_apply]
  show V m c main_v7 _ = V m c main_v7 y
  refine congrArg _ ?_
  funext a; apply Fin.ext
  match a with
  | ⟨0, _⟩ => show win0_4.index t (0 : Fin 2) * 100 + 1 * (y 0).val = (y 0).val; rw [e0]; omega
  | ⟨1, _⟩ => show win0_4.index t (1 : Fin 2) * 1 + 1 * (y 1).val = (y 1).val; rw [e1]; omega

theorem iblk5_eq (c : Dev nD) (t : Fin cfg0.N) :
    (iblk m c 5 t : Vec F S1x1 .f32) = V m c main_v9 := by
  obtain ⟨-, -, -, -, -, -, -, -, -, -, e0, e1, -⟩ := idx_facts t
  funext y
  unfold iblk
  rw [View.read_apply]
  show V m c main_v9 _ = V m c main_v9 y
  refine congrArg _ ?_
  funext a; apply Fin.ext
  match a with
  | ⟨0, _⟩ => show win0_5.index t (0 : Fin 2) * 1 + 1 * (y 0).val = (y 0).val; rw [e0]; omega
  | ⟨1, _⟩ => show win0_5.index t (1 : Fin 2) * 1 + 1 * (y 1).val = (y 1).val; rw [e1]; omega

theorem iblk6_eq (c : Dev nD) (t : Fin cfg0.N) :
    (iblk m c 6 t : Vec F S1x2 .f32) = V m c main_v3 := by
  obtain ⟨-, -, -, -, -, -, -, -, -, -, -, -, e0, e1, -⟩ := idx_facts t
  funext y
  unfold iblk
  rw [View.read_apply]
  show V m c main_v3 _ = V m c main_v3 y
  refine congrArg _ ?_
  funext a; apply Fin.ext
  match a with
  | ⟨0, _⟩ => show win0_6.index t (0 : Fin 2) * 1 + 1 * (y 0).val = (y 0).val; rw [e0]; omega
  | ⟨1, _⟩ => show win0_6.index t (1 : Fin 2) * 2 + 1 * (y 1).val = (y 1).val; rw [e1]; omega

/-! The small operands as the host prepared them. -/

theorem V5_eq (c : Dev nD) : (V m c main_v5 : S784x100.Idx → F .bf16)
    = truncf .bf16 (transpose S784x100 [1, 0] (m ((c : Thread nD τ).loc main_arg3)) transposes_S100x784_S784x100_1_0) bitsLt_bf16_f32 := by
  show StableHlo.after hostOps0 (fun b => m (c, b)) (Proc.devRef .tc main_v5) = _
  after_results

theorem V8_eq (c : Dev nD) : (V m c main_v8 : S1x100.Idx → F .f32)
    = shapeCast S1x100 (m ((c : Thread nD τ).loc main_arg4)) shapeCasts_S100_S1x100 := by
  show StableHlo.after hostOps0 (fun b => m (c, b)) (Proc.devRef .tc main_v8) = _
  after_results
  rfl

theorem V7_eq (c : Dev nD) : (V m c main_v7 : S100x1.Idx → F .bf16)
    = truncf .bf16 (transpose S100x1 [1, 0] (m ((c : Thread nD τ).loc main_arg5)) transposes_S1x100_S100x1_1_0) bitsLt_bf16_f32 := by
  show StableHlo.after hostOps0 (fun b => m (c, b)) (Proc.devRef .tc main_v7) = _
  after_results

theorem V9_eq (c : Dev nD) : (V m c main_v9 : S1x1.Idx → F .f32)
    = shapeCast S1x1 (m ((c : Thread nD τ).loc main_arg6)) shapeCasts_S1_S1x1 := by
  show StableHlo.after hostOps0 (fun b => m (c, b)) (Proc.devRef .tc main_v9) = _
  after_results
  rfl

theorem V3_eq (c : Dev nD) : (V m c main_v3 : S1x2.Idx → F .f32)
    = transpose S1x2 [1, 0] (Host.dotGeneral dot_S2x2_S2x1_S2x1_1_0_0_1_n_n none (m ((c : Thread nD τ).loc main_arg7))
        (m ((c : Thread nD τ).loc main_arg2))) transposes_S2x1_S1x2_1_0 := by
  show StableHlo.after hostOps0 (fun b => m (c, b)) (Proc.devRef .tc main_v3) = _
  after_results

/-- The sum of the squared entries of `W`, which the host computes before the launch. -/
theorem V1_eq (c : Dev nD) : (V m c main_v1 : S_.Idx → F .f32)
    = Host.reduceAdd (mulf (m ((c : Thread nD τ).loc main_arg2)) (m ((c : Thread nD τ).loc main_arg2))) (constant S_ .f32 0x00000000#32)
        reducesTo_S2x1_S_d0_1 h_S_ := by
  show StableHlo.after hostOps0 (fun b => m (c, b)) (Proc.devRef .tc main_v1) = _
  after_results

end Cert.KernelIdeal.Blocks
end
-- ==== Proof.Spec.lean ====
/-
  The per-row mathematics both programs compute, on the extended reals.

  For one sample (a row of 784 features and a row of 2 sensitive-attribute indicators):
    * the prediction  ŷ = σ( Σ_j max(Σ_d x_d · w1_{d,j} + b1_j, 0) · w2_j + b2 ),  σ the logistic function,
      over a hidden layer of 100 units;
    * the projected attribute  s·(P W) = Σ_k s_k · (Σ_l P_{k,l} · W_l).
  The loss needs the two batch sums  Σ ŷ²  and  Σ ŷ · (s·(P W)); their summands are named here.
  The zero the rectifier compares with is kept as the float word of +0.0: both programs spell it so.
-/
import Idealize.ShloMosaic.PureOps.Ideal

noncomputable section

namespace Cert.Spec

open Idealize.ShloMosaic

/-- The prediction for one sample: two dense layers, a rectifier between them, the logistic function last. -/
def yhat (x : Fin 784 → EReal) (w1 : Fin 784 → Fin 100 → EReal) (b1 : Fin 100 → EReal)
    (w2 : Fin 100 → EReal) (b2 : EReal) : EReal :=
  Ideal.logistic ((∑ j : Fin 100, max ((∑ d : Fin 784, x d * w1 d j) + b1 j) (Ideal.ofBits .f32 0x00000000#32) * w2 j) + b2)

/-- The column  P W  (two entries). -/
def pw (P : Fin 2 → Fin 2 → EReal) (W : Fin 2 → EReal) (k : Fin 2) : EReal := ∑ l : Fin 2, P k l * W l

/-- One sample's indicator row against a two-entry column. -/
def proj (s : Fin 2 → EReal) (q : Fin 2 → EReal) : EReal := ∑ k : Fin 2, s k * q k

end Cert.Spec

end
-- ==== Proof.KRow.lean ====
/-
  One grid step's arithmetic, read entry by entry on the extended reals.

  From its tile of 2048 samples a step computes each sample's prediction (two matrix products with a
  rectifier between, then the logistic function) and the sample's projected attribute (a lane sum of the
  attribute row times the row (P W)ᵀ), and then two column sums over the tile:
      Σ_r ŷ_r · ŷ_r      and      Σ_r ŷ_r · (s_r · (P W)).
  On the extended reals a matrix product into a zero accumulator is the plain sum of products, a change of
  float format is the identity, and a reduction started from the word of +0.0 is the plain sum.
-/
import proofs.«127067_j75402445849094_2_alg».proof.Proof.Gen.KernelIdeal.Skeleton
import proofs.«127067_j75402445849094_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx

namespace Cert.KernelIdeal.Row
open Cert.KernelIdeal Cert.KernelIdeal.Gen

/-- The first layer's product: 2048 × 784 by 784 × 100. -/
abbrev D1 : DotDims S2048x784 S784x100 S2048x100 := dot_S2048x784_S784x100_S2048x100_1_0_0_1_n_n
/-- The second layer's product: 2048 × 100 by 100 × 1. -/
abbrev D2 : DotDims S2048x100 S100x1 S2048x1 := dot_S2048x100_S100x1_S2048x1_1_0_0_1_n_n

theorem D1_lhs0 (i : S2048x100.Idx) (q : D1.contr.Idx) : (D1.lhsIdx i q 0).val = (i 0).val := by
  unfold DotDims.lhsIdx
  rw [dif_neg (show ¬(0 : Fin S2048x784.rank) ∈ D1.lhsBatch by decide), dif_pos (show (0 : Fin S2048x784.rank) ∈ D1.lhsNonContracting by decide)]
  rfl
theorem D1_lhs1 (i : S2048x100.Idx) (q : D1.contr.Idx) : (D1.lhsIdx i q 1).val = (q ⟨0, by decide⟩).val :=
  D1.lhsIdx_val_of_single rfl i q
theorem D1_rhs0 (i : S2048x100.Idx) (q : D1.contr.Idx) : (D1.rhsIdx i q 0).val = (q ⟨0, by decide⟩).val :=
  D1.rhsIdx_val_of_single rfl i q
theorem D1_rhs1 (i : S2048x100.Idx) (q : D1.contr.Idx) : (D1.rhsIdx i q 1).val = (i 1).val := by
  unfold DotDims.rhsIdx
  rw [dif_neg (show ¬(1 : Fin S784x100.rank) ∈ D1.rhsBatch by decide), dif_pos (show (1 : Fin S784x100.rank) ∈ D1.rhsNonContracting by decide)]
  rfl

theorem D2_lhs0 (i : S2048x1.Idx) (q : D2.contr.Idx) : (D2.lhsIdx i q 0).val = (i 0).val := by
  unfold DotDims.lhsIdx
  rw [dif_neg (show ¬(0 : Fin S2048x100.rank) ∈ D2.lhsBatch by decide), dif_pos (show (0 : Fin S2048x100.rank) ∈ D2.lhsNonContracting by decide)]
  rfl
theorem D2_lhs1 (i : S2048x1.Idx) (q : D2.contr.Idx) : (D2.lhsIdx i q 1).val = (q ⟨0, by decide⟩).val :=
  D2.lhsIdx_val_of_single rfl i q
theorem D2_rhs0 (i : S2048x1.Idx) (q : D2.contr.Idx) : (D2.rhsIdx i q 0).val = (q ⟨0, by decide⟩).val :=
  D2.rhsIdx_val_of_single rfl i q
theorem D2_rhs1 (i : S2048x1.Idx) (q : D2.contr.Idx) : (D2.rhsIdx i q 1).val = (i 1).val := by
  unfold DotDims.rhsIdx
  rw [dif_neg (show ¬(1 : Fin S100x1.rank) ∈ D2.rhsBatch by decide), dif_pos (show (1 : Fin S100x1.rank) ∈ D2.rhsNonContracting by decide)]
  rfl

/-- The first product at (p, j): the sum over the 784 features. -/
theorem mm1_apply (l : FVec Ideal S2048x784 .bf16) (r : FVec Ideal S784x100 .bf16) (p : Fin 2048) (j : Fin 100) :
    matmul D1 none l r (constant S2048x100 .f32 0x00000000#32) (ix2 p j) = ∑ k : Fin 784, l (ix2 p k) * r (ix2 k j) := by
  simp only [matmul]
  rw [Ideal.matmul_constant_zero_apply, ← Equiv.sum_comp (contrEquiv1 D1 784 rfl rfl).symm]
  refine Finset.sum_congr rfl fun k _ => ?_
  have hk := contrEquiv1_symm_val D1 784 rfl rfl k
  have el : D1.lhsIdx (ix2 p j) ((contrEquiv1 D1 784 rfl rfl).symm k) = ix2 p k := funext fun a => Fin.ext (by
    match a with
    | ⟨0, _⟩ => exact D1_lhs0 _ _
    | ⟨1, _⟩ => exact (D1_lhs1 _ _).trans hk)
  have er : D1.rhsIdx (ix2 p j) ((contrEquiv1 D1 784 rfl rfl).symm k) = ix2 k j := funext fun a => Fin.ext (by
    match a with
    | ⟨0, _⟩ => exact (D1_rhs0 _ _).trans hk
    | ⟨1, _⟩ => exact D1_rhs1 _ _)
  rw [el, er]

/-- The second product at (p, j): the sum over the 100 hidden units. -/
theorem mm2_apply (l : FVec Ideal S2048x100 .bf16) (r : FVec Ideal S100x1 .bf16) (p : Fin 2048) (j : Fin 1) :
    matmul D2 none l r (constant S2048x1 .f32 0x00000000#32) (ix2 p j) = ∑ k : Fin 100, l (ix2 p k) * r (ix2 k j) := by
  simp only [matmul]
  rw [Ideal.matmul_constant_zero_apply, ← Equiv.sum_comp (contrEquiv1 D2 100 rfl rfl).symm]
  refine Finset.sum_congr rfl fun k _ => ?_
  have hk := contrEquiv1_symm_val D2 100 rfl rfl k
  have el : D2.lhsIdx (ix2 p j) ((contrEquiv1 D2 100 rfl rfl).symm k) = ix2 p k := funext fun a => Fin.ext (by
    match a with
    | ⟨0, _⟩ => exact D2_lhs0 _ _
    | ⟨1, _⟩ => exact (D2_lhs1 _ _).trans hk)
  have er : D2.rhsIdx (ix2 p j) ((contrEquiv1 D2 100 rfl rfl).symm k) = ix2 k j := funext fun a => Fin.ext (by
    match a with
    | ⟨0, _⟩ => exact (D2_rhs0 _ _).trans hk
    | ⟨1, _⟩ => exact D2_rhs1 _ _)
  rw [el, er]

/-- The hidden layer of a tile: the first product plus the bias row, rectified. -/
def hidden (x0 : FVec Ideal S2048x784 .f32) (x2 : FVec Ideal S784x100 .bf16) (x3 : FVec Ideal S1x100 .f32) : FVec Ideal S2048x100 .f32 :=
  maximumf (addf (matmul D1 none (truncf .bf16 x0 bitsLt_bf16_f32) (shapeCast S784x100 x2 shapeCasts_S784x100_S784x100) (constant S2048x100 .f32 0x00000000#32))
    (broadcastTo S2048x100 (shapeCast S1x100 x3 shapeCasts_S1x100_S1x100) broadcasts_S1x100_S2048x100)) (broadcast S2048x100 (Scalar.ofBits .f32 0x00000000#32))

theorem hidden_apply (x0 : FVec Ideal S2048x784 .f32) (x2 : FVec Ideal S784x100 .bf16) (x3 : FVec Ideal S1x100 .f32) (p : Fin 2048) (j : Fin 100) :
    hidden x0 x2 x3 (ix2 p j) = max ((∑ d : Fin 784, x0 (ix2 p d) * x2 (ix2 d j)) + x3 (ix2 (0 : Fin 1) j)) (Ideal.ofBits .f32 0x00000000#32) := by
  unfold hidden
  rw [shapeCast_self, shapeCast_self]
  show max (matmul D1 none _ _ _ (ix2 p j) + broadcastTo _ _ _ (ix2 p j)) _ = _
  rw [mm1_apply, broadcastTo_1b_ab_apply]
  rfl

/-- The predictions of a tile are the logistic function of the second product plus its bias. -/
theorem pay5_eq (x0 : FVec Ideal S2048x784 .f32) (x2 : FVec Ideal S784x100 .bf16) (x3 : FVec Ideal S1x100 .f32) (x4 : FVec Ideal S100x1 .bf16) (x5 : FVec Ideal S1x1 .f32) :
    k0_pay5 (F := Ideal) x0 x2 x3 x4 x5 = logistic (addf (matmul D2 none (truncf .bf16 (hidden x0 x2 x3) bitsLt_bf16_f32) (shapeCast S100x1 x4 shapeCasts_S100x1_S100x1) (constant S2048x1 .f32 0x00000000#32))
      (broadcastTo S2048x1 (shapeCast S1x1 x5 shapeCasts_S1x1_S1x1) broadcasts_S1x1_S2048x1)) := rfl

/-- Sample `p`'s prediction, from row `p` of the feature tile and the small operands. -/
theorem pay5_apply (x0 : FVec Ideal S2048x784 .f32) (x2 : FVec Ideal S784x100 .bf16) (x3 : FVec Ideal S1x100 .f32) (x4 : FVec Ideal S100x1 .bf16) (x5 : FVec Ideal S1x1 .f32)
    (p : Fin 2048) (z : Fin 1) :
    k0_pay5 (F := Ideal) x0 x2 x3 x4 x5 (ix2 p z)
      = Spec.yhat (fun d => x0 (ix2 p d)) (fun d j => x2 (ix2 d j)) (fun j => x3 (ix2 (0 : Fin 1) j)) (fun j => x4 (ix2 j (0 : Fin 1))) (x5 (ix2 (0 : Fin 1) (0 : Fin 1))) := by
  obtain rfl : z = 0 := Subsingleton.elim _ _
  rw [pay5_eq, shapeCast_self, shapeCast_self]
  show Ideal.logistic (matmul (F := Ideal) D2 none _ _ _ (ix2 p 0) + broadcastTo _ _ _ (ix2 p 0)) = _
  rw [mm2_apply, broadcastTo_1b_ab_apply]
  unfold Spec.yhat
  refine congrArg Ideal.logistic (congrArg (· + _) (Finset.sum_congr rfl fun j _ => ?_))
  show hidden x0 x2 x3 (ix2 p j) * x4 (ix2 j 0) = _
  rw [hidden_apply]

end Cert.KernelIdeal.Row
end
-- ==== Proof.KSums.lean ====
/-
  The two column sums of a grid step and the accumulation into the one-element blocks, entry by entry.

  A tile's first local sum is  Σ_r ŷ_r · ŷ_r  over its 2048 samples, its second  Σ_r ŷ_r · (s_r · q)  with
  q the staged row (P W)ᵀ. A one-element block, however many unit axes its shape is written with, has one
  entry; a change of shape among such blocks keeps that entry, and the accumulation is one addition:
  (what the block held) + (the local sum).
-/
import proofs.«127067_j75402445849094_2_alg».proof.Proof.KRow

noncomputable section
open Idealize.ShloMosaic Idealize.ShloMosaic.TcCoe Idealize.SL.Sem Idealize.ShloMosaic.ValueIdx

namespace Cert.KernelIdeal.Sums
open Cert.KernelIdeal Cert.KernelIdeal.Gen Cert.KernelIdeal.Row

instance sub1 : Subsingleton S1.Idx :=
  ⟨fun a b => funext fun d => match d with | ⟨0, _⟩ => Subsingleton.elim (α := Fin 1) _ _⟩
instance sub11 : Subsingleton S1x1.Idx :=
  ⟨fun a b => funext fun d => match d with
    | ⟨0, _⟩ => Subsingleton.elim (α := Fin 1) _ _ | ⟨1, _⟩ => Subsingleton.elim (α := Fin 1) _ _⟩
instance sub111 : Subsingleton S1x1x1.Idx :=
  ⟨fun a b => funext fun d => match d with
    | ⟨0, _⟩ => Subsingleton.elim (α := Fin 1) _ _ | ⟨1, _⟩ => Subsingleton.elim (α := Fin 1) _ _
    | ⟨2, _⟩ => Subsingleton.elim (α := Fin 1) _ _⟩

/-- A change of shape out of a one-entry block reads that entry, at whatever index it is asked. -/
theorem cast_single {s t : Shape} [Subsingleton s.Idx] (x : s.Idx → EReal) (h : s.ShapeCasts t) (j : t.Idx) (k : s.Idx) :
    shapeCast t x h j = x k := by
  unfold shapeCast
  exact congrArg x (Subsingleton.elim _ _)

/-- A column sum over the 2048 samples of a tile, started from the word of +0.0, is the plain sum. -/
theorem colSum_apply (v : FVec Ideal S2048x1 .f32) (j : S1.Idx) :
    multiReduction .add [0] S1 v 0x00000000#32 reduces_S2048x1_S1 (.inl rfl) rfl j = ∑ r : Fin 2048, v (ix2 r (0 : Fin 1)) := by
  refine (Ideal.multiReduction_add_total v _ reduces_S2048x1_S1 (fun b => match b with | ⟨0, _⟩ => rfl) _ _ j).trans ?_
  rw [sum_idx2]
  exact Finset.sum_congr rfl fun r _ => Fintype.sum_unique _

/-- A lane sum over the two attribute columns, at sample `r`. -/
theorem laneSum_apply (v : FVec Ideal S2048x2 .f32) (r : Fin 2048) :
    multiReduction .add [1] S2048 v 0x00000000#32 reduces_S2048x2_S2048 (.inl rfl) rfl (ix1 r) = ∑ k : Fin 2, v (ix2 r k) := by
  refine (Ideal.multiReduction_add_single v _ reduces_S2048x2_S2048 _ _ (ix1 r)).trans ?_
  refine Finset.sum_congr rfl fun k _ => congrArg v ?_
  funext a
  apply Fin.ext
  match a with
  | ⟨0, _⟩ => rfl
  | ⟨1, _⟩ => rfl

/-- A vector of 2048 entries viewed as a column. -/
theorem col_apply (v : FVec Ideal S2048 .f32) (r : Fin 2048) (z : Fin 1) :
    shapeCast S2048x1 v shapeCasts_S2048_S2048x1 (ix2 r z) = v (ix1 r) :=
  shapeCast_apply v _ _ _ (by
    rw [Shape.rowMajor_val_two, Shape.rowMajor_val_one]
    show r.val = r.val * 1 + z.val
    have := z.isLt
    omega)

theorem pay6_eq (x0 : FVec Ideal S2048x784 .f32) (x2 : FVec Ideal S784x100 .bf16) (x3 : FVec Ideal S1x100 .f32) (x4 : FVec Ideal S100x1 .bf16) (x5 : FVec Ideal S1x1 .f32) :
    k0_pay6 (F := Ideal) x0 x2 x3 x4 x5 = shapeCast S1x1 (multiReduction .add [0] S1 (mulf (k0_pay5 (F := Ideal) x0 x2 x3 x4 x5) (k0_pay5 (F := Ideal) x0 x2 x3 x4 x5))
      0x00000000#32 reduces_S2048x1_S1 (.inl rfl) rfl) shapeCasts_S1_S1x1 := rfl

/-- The first local sum of a tile: the squared predictions summed over its samples. -/
theorem pay6_apply (x0 : FVec Ideal S2048x784 .f32) (x2 : FVec Ideal S784x100 .bf16) (x3 : FVec Ideal S1x100 .f32) (x4 : FVec Ideal S100x1 .bf16) (x5 : FVec Ideal S1x1 .f32) (j : S1x1.Idx) :
    k0_pay6 (F := Ideal) x0 x2 x3 x4 x5 j
      = ∑ r : Fin 2048, k0_pay5 (F := Ideal) x0 x2 x3 x4 x5 (ix2 r (0 : Fin 1)) * k0_pay5 (F := Ideal) x0 x2 x3 x4 x5 (ix2 r (0 : Fin 1)) := by
  rw [pay6_eq]
  exact (cast_single _ _ j (ix1 (0 : Fin 1))).trans (colSum_apply _ _)

theorem pay7_eq (x0 : FVec Ideal S2048x784 .f32) (x1 : FVec Ideal S2048x2 .f32) (x2 : FVec Ideal S784x100 .bf16) (x3 : FVec Ideal S1x100 .f32) (x4 : FVec Ideal S100x1 .bf16) (x5 : FVec Ideal S1x1 .f32) (x6 : FVec Ideal S1x2 .f32) :
    k0_pay7 (F := Ideal) x0 x1 x2 x3 x4 x5 x6 = multiReduction .add [0] S1 (mulf (k0_pay5 (F := Ideal) x0 x2 x3 x4 x5)
      (shapeCast S2048x1 (multiReduction .add [1] S2048 (mulf x1 (broadcastTo S2048x2 (shapeCast S1x2 x6 shapeCasts_S1x2_S1x2) broadcasts_S1x2_S2048x2))
        0x00000000#32 reduces_S2048x2_S2048 (.inl rfl) rfl) shapeCasts_S2048_S2048x1))
      0x00000000#32 reduces_S2048x1_S1 (.inl rfl) rfl := rfl

/-- The second local sum of a tile: prediction times projected attribute, summed over its samples. -/
theorem pay7_apply (x0 : FVec Ideal S2048x784 .f32) (x1 : FVec Ideal S2048x2 .f32) (x2 : FVec Ideal S784x100 .bf16) (x3 : FVec Ideal S1x100 .f32) (x4 : FVec Ideal S100x1 .bf16) (x5 : FVec Ideal S1x1 .f32) (x6 : FVec Ideal S1x2 .f32) (j : S1.Idx) :
    k0_pay7 (F := Ideal) x0 x1 x2 x3 x4 x5 x6 j
      = ∑ r : Fin 2048, k0_pay5 (F := Ideal) x0 x2 x3 x4 x5 (ix2 r (0 : Fin 1)) * Spec.proj (fun k => x1 (ix2 r k)) (fun k => x6 (ix2 (0 : Fin 1) k)) := by
  rw [pay7_eq]
  refine (colSum_apply _ j).trans (Finset.sum_congr rfl fun r _ => ?_)
  show k0_pay5 (F := Ideal) x0 x2 x3 x4 x5 (ix2 r 0) * shapeCast S2048x1 _ _ (ix2 r 0) = _
  rw [col_apply, laneSum_apply, shapeCast_self]
  unfold Spec.proj
  refine congrArg (_ * ·) (Finset.sum_congr rfl fun k _ => ?_)
  show x1 (ix2 r k) * broadcastTo _ _ _ (ix2 r k) = _
  rw [broadcastTo_1b_ab_apply]

/-- The reset stores the word of +0.0 in either accumulator. -/
theorem pay3_apply (j : S1x1x1.Idx) : k0_pay3 (F := Ideal) j = Ideal.ofBits .f32 0x00000000#32 := by
  unfold k0_pay3
  exact cast_single _ _ j (ix2 (0 : Fin 1) (0 : Fin 1))
theorem pay4_apply (j : S1x1x1.Idx) : k0_pay4 (F := Ideal) j = Ideal.ofBits .f32 0x00000000#32 := by
  unfold k0_pay4
  exact cast_single _ _ j (ix2 (0 : Fin 1) (0 : Fin 1))

/-- The first accumulator after a step: what it held plus the first local sum. -/
theorem pay1_apply (v32 : FVec Ideal S1x1 .f32) (v36 : FVec Ideal S1x1x1 .f32) (j : S1x1x1.Idx) :
    k0_pay1 (F := Ideal) v32 v36 j = v36 (ix3 (0 : Fin 1) (0 : Fin 1) (0 : Fin 1)) + v32 (ix2 (0 : Fin 1) (0 : Fin 1)) := by
  unfold k0_pay1
  refine (cast_single _ _ j (ix2 (0 : Fin 1) (0 : Fin 1))).trans ?_
  show shapeCast S1x1 v36 _ (ix2 0 0) + v32 (ix2 0 0) = _
  rw [cast_single v36 _ (ix2 0 0) (ix3 0 0 0)]

/-- The second accumulator after a step: what it held plus the second local sum. -/
theorem pay2_apply (v34 : FVec Ideal S1 .f32) (v42 : FVec Ideal S1x1x1 .f32) (j : S1x1x1.Idx) :
    k0_pay2 (F := Ideal) v34 v42 j = v42 (ix3 (0 : Fin 1) (0 : Fin 1) (0 : Fin 1)) + v34 (ix1 (0 : Fin 1)) := by
  unfold k0_pay2
  refine (cast_single _ _ j (ix2 (0 : Fin 1) (0 : Fin 1))).trans ?_
  show shapeCast S1x1 v42 _ (ix2 0 0) + shapeCast S1x1 v34 _ (ix2 0 0) = _
  rw [cast_single v42 _ (ix2 0 0) (ix3 0 0 0), cast_single v34 _ (ix2 0 0) (ix1 0)]

end Cert.KernelIdeal.Sums
end
-- ==== Proof.SumLaw.lean ====
/-
  Regrouping the sum over a batch of 131072 rows.

  The batch is cut into 64 tiles of 2048 consecutive rows; the tiles are swept in two runs of 32, one run
  per core. Each run keeps a running total that is reset at the run's first tile and grown by one tile's
  sum at every tile; the two totals standing after the last tile of each run are then added. This file says
  that the result is the sum over all rows, in any additive commutative monoid: only reassociation of a
  finite sum is used, so the statement holds on the extended reals with no finiteness assumption.
-/
import Mathlib

namespace Cert.SumLaw

open Finset

variable {M : Type*} [AddCommMonoid M]

/-- A sum over `m * n` consecutive naturals is the sum over `m` consecutive blocks of `n`. -/
theorem sum_range_blocks (f : ℕ → M) (m n : ℕ) :
    ∑ b ∈ range (m * n), f b = ∑ t ∈ range m, ∑ r ∈ range n, f (n * t + r) := by
  induction m with
  | zero => simp
  | succ m ih =>
    rw [Nat.succ_mul, Finset.sum_range_add, ih, Finset.sum_range_succ, Nat.mul_comm m n]

/-- The sum of tile `t`: rows `2048 t` … `2048 t + 2047`. -/
def tileSum (g : ℕ → M) (t : ℕ) : M := ∑ r ∈ range 2048, g (2048 * t + r)

/-- The running total standing after step `n`: the tile sums from the first step of `n`'s run of 32
    up to `n` itself. -/
def running (B : ℕ → M) (n : ℕ) : M := ∑ i ∈ range (n % 32 + 1), B (n - n % 32 + i)

/-- At the first step of a run the total is that step's tile sum alone. -/
theorem running_first (B : ℕ → M) {n : ℕ} (h : n % 32 = 0) : running B n = B n := by
  unfold running
  rw [h]
  simp

/-- At any other step the total grows by that step's tile sum. -/
theorem running_step (B : ℕ → M) {n : ℕ} (h : ¬(n + 1) % 32 = 0) :
    running B (n + 1) = running B n + B (n + 1) := by
  unfold running
  have h1 : (n + 1) % 32 = n % 32 + 1 := by omega
  have h2 : n + 1 - (n % 32 + 1) = n - n % 32 := by omega
  have h3 : n - n % 32 + (n % 32 + 1) = n + 1 := by omega
  rw [h1, h2, Finset.sum_range_succ (fun i => B (n - n % 32 + i)) (n % 32 + 1), h3]

/-- After the last step of run `q` the total is the sum of the run's 32 tile sums. -/
theorem running_last (B : ℕ → M) (q : ℕ) : running B (32 * q + 31) = ∑ i ∈ range 32, B (32 * q + i) := by
  unfold running
  have h1 : (32 * q + 31) % 32 = 31 := by omega
  have h2 : 32 * q + 31 - 31 = 32 * q := by omega
  rw [h1, h2]

/-- The two runs' final totals add up to the sum over all 131072 rows. -/
theorem runs_total (g : ℕ → M) :
    ∑ q ∈ range 2, running (tileSum g) (32 * q + 31) = ∑ b ∈ range 131072, g b := by
  have e1 : ∑ q ∈ range 2, running (tileSum g) (32 * q + 31)
      = ∑ q ∈ range 2, ∑ i ∈ range 32, tileSum g (32 * q + i) :=
    Finset.sum_congr rfl fun q _ => running_last _ q
  rw [e1, ← sum_range_blocks (tileSum g) 2 32]
  unfold tileSum
  rw [← sum_range_blocks g (2 * 32) 2048]

end Cert.SumLaw
-- ==== Proof.KAcc.lean ====
/-
  The two accumulators across the grid, and what the two result arrays end holding.

  Write  ŷ_b  for sample b's prediction and  π_b = s_b · (P W)  for its projected attribute, both functions
  of the argument arrays alone. Step t's local sums are  Σ ŷ_b ŷ_b  and  Σ ŷ_b π_b  over the samples
  b = 2048 t … 2048 t + 2047 of its tile. By induction on the step, each accumulator block holds after step t
  the total of the local sums from the first step of t's sweep up to t (the reset at a sweep's first step
  contributes the word of +0.0, which is the real 0). A block is written back after the last step of a sweep
  only, into entry `t / 32` of its two-entry result array; so entry q of each result array is sweep q's total.
-/
import proofs.«127067_j75402445849094_2_alg».proof.Proof.KPieces
import proofs.«127067_j75402445849094_2_alg».proof.Proof.KBlocks
import proofs.«127067_j75402445849094_2_alg».proof.Proof.KSums
import proofs.«127067_j75402445849094_2_alg».proof.Proof.SumLaw

noncomputable section
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen Cert.KernelIdeal.Row Cert.KernelIdeal.Sums Cert.KernelIdeal.Blocks Cert.KernelIdeal.Pieces
open Cert.SumLaw (tileSum running running_first running_step)

variable (m : (ℓ : Loc nD τ sig) → Buf (Elt Ideal) ℓ)

/-- The product  P W  the host forms before the launch: 2 × 2 by 2 × 1. -/
abbrev D0 : DotDims S2x2 S2x1 S2x1 := dot_S2x2_S2x1_S2x1_1_0_0_1_n_n

theorem D0_lhs0 (i : S2x1.Idx) (q : D0.contr.Idx) : (D0.lhsIdx i q 0).val = (i 0).val := by
  unfold DotDims.lhsIdx
  rw [dif_neg (show ¬(0 : Fin S2x2.rank) ∈ D0.lhsBatch by decide), dif_pos (show (0 : Fin S2x2.rank) ∈ D0.lhsNonContracting by decide)]
  rfl
theorem D0_lhs1 (i : S2x1.Idx) (q : D0.contr.Idx) : (D0.lhsIdx i q 1).val = (q ⟨0, by decide⟩).val :=
  D0.lhsIdx_val_of_single rfl i q
theorem D0_rhs0 (i : S2x1.Idx) (q : D0.contr.Idx) : (D0.rhsIdx i q 0).val = (q ⟨0, by decide⟩).val :=
  D0.rhsIdx_val_of_single rfl i q
theorem D0_rhs1 (i : S2x1.Idx) (q : D0.contr.Idx) : (D0.rhsIdx i q 1).val = (i 1).val := by
  unfold DotDims.rhsIdx
  rw [dif_neg (show ¬(1 : Fin S2x1.rank) ∈ D0.rhsBatch by decide), dif_pos (show (1 : Fin S2x1.rank) ∈ D0.rhsNonContracting by decide)]
  rfl

/-- Entry (k, z) of  P W. -/
theorem pw_apply (P : FVec Ideal S2x2 .f32) (W : FVec Ideal S2x1 .f32) (k : Fin 2) (z : Fin 1) :
    Host.dotGeneral (F := Ideal) D0 none P W (ix2 k z) = ∑ l : Fin 2, P (ix2 k l) * W (ix2 l z) := by
  simp only [Host.dotGeneral]
  rw [Ideal.dotGeneral_apply, ← Equiv.sum_comp (contrEquiv1 D0 2 rfl rfl).symm]
  refine Finset.sum_congr rfl fun l _ => ?_
  have hk := contrEquiv1_symm_val D0 2 rfl rfl l
  have el : D0.lhsIdx (ix2 k z) ((contrEquiv1 D0 2 rfl rfl).symm l) = ix2 k l := funext fun a => Fin.ext (by
    match a with
    | ⟨0, _⟩ => exact D0_lhs0 _ _
    | ⟨1, _⟩ => exact (D0_lhs1 _ _).trans hk)
  have er : D0.rhsIdx (ix2 k z) ((contrEquiv1 D0 2 rfl rfl).symm l) = ix2 l z := funext fun a => Fin.ext (by
    match a with
    | ⟨0, _⟩ => exact (D0_rhs0 _ _).trans hk
    | ⟨1, _⟩ => exact D0_rhs1 _ _)
  rw [el, er]

/-- Sample `b`'s prediction, from the argument arrays. -/
def yh (c : Dev nD) (b : Fin 131072) : EReal :=
  Spec.yhat (fun d => (m ((c : Thread nD τ).loc main_arg0)) (ix2 b d)) (fun d j => (m ((c : Thread nD τ).loc main_arg3)) (ix2 j d)) (fun j => (m ((c : Thread nD τ).loc main_arg4)) (ix1 j))
    (fun j => (m ((c : Thread nD τ).loc main_arg5)) (ix2 (0 : Fin 1) j)) ((m ((c : Thread nD τ).loc main_arg6)) (ix1 (0 : Fin 1)))

/-- Sample `b`'s projected attribute, from the argument arrays. -/
def pj (c : Dev nD) (b : Fin 131072) : EReal :=
  Spec.proj (fun k => (m ((c : Thread nD τ).loc main_arg1)) (ix2 b k)) (Spec.pw (fun k l => (m ((c : Thread nD τ).loc main_arg7)) (ix2 k l)) (fun l => (m ((c : Thread nD τ).loc main_arg2)) (ix2 l (0 : Fin 1))))

/-- The two summands of sample `b`, as functions of a natural number (zero past the batch). -/
def sq (c : Dev nD) : ℕ → EReal := fun b => if h : b < 131072 then yh m c ⟨b, h⟩ * yh m c ⟨b, h⟩ else 0
def cr (c : Dev nD) : ℕ → EReal := fun b => if h : b < 131072 then yh m c ⟨b, h⟩ * pj m c ⟨b, h⟩ else 0

/-! The small operands of a step, entry by entry. -/

theorem x2_at (c : Dev nD) (t : Fin cfg0.N) (d : Fin 784) (j : Fin 100) :
    (iblk m c 2 t : Vec Ideal S784x100 .bf16) (ix2 d j) = (m ((c : Thread nD τ).loc main_arg3)) (ix2 j d) := by
  rw [iblk2_eq, V5_eq]
  show transpose S784x100 [1, 0] (m ((c : Thread nD τ).loc main_arg3)) transposes_S100x784_S784x100_1_0 (ix2 d j) = _
  exact transpose_ix2_apply (m ((c : Thread nD τ).loc main_arg3)) transposes_S100x784_S784x100_1_0 d j

theorem x3_at (c : Dev nD) (t : Fin cfg0.N) (j : Fin 100) :
    (iblk m c 3 t : Vec Ideal S1x100 .f32) (ix2 (0 : Fin 1) j) = (m ((c : Thread nD τ).loc main_arg4)) (ix1 j) := by
  rw [iblk3_eq, V8_eq]
  exact shapeCast_a_1a_apply (m ((c : Thread nD τ).loc main_arg4)) shapeCasts_S100_S1x100 0 j

theorem x4_at (c : Dev nD) (t : Fin cfg0.N) (j : Fin 100) :
    (iblk m c 4 t : Vec Ideal S100x1 .bf16) (ix2 j (0 : Fin 1)) = (m ((c : Thread nD τ).loc main_arg5)) (ix2 (0 : Fin 1) j) := by
  rw [iblk4_eq, V7_eq]
  show transpose S100x1 [1, 0] (m ((c : Thread nD τ).loc main_arg5)) transposes_S1x100_S100x1_1_0 (ix2 j 0) = _
  exact transpose_ix2_apply (m ((c : Thread nD τ).loc main_arg5)) transposes_S1x100_S100x1_1_0 j 0

theorem x5_at (c : Dev nD) (t : Fin cfg0.N) :
    (iblk m c 5 t : Vec Ideal S1x1 .f32) (ix2 (0 : Fin 1) (0 : Fin 1)) = (m ((c : Thread nD τ).loc main_arg6)) (ix1 (0 : Fin 1)) := by
  rw [iblk5_eq, V9_eq]
  exact shapeCast_a_1a_apply (m ((c : Thread nD τ).loc main_arg6)) shapeCasts_S1_S1x1 0 0

theorem x6_at (c : Dev nD) (t : Fin cfg0.N) (k : Fin 2) :
    (iblk m c 6 t : Vec Ideal S1x2 .f32) (ix2 (0 : Fin 1) k)
      = Spec.pw (fun k l => (m ((c : Thread nD τ).loc main_arg7)) (ix2 k l)) (fun l => (m ((c : Thread nD τ).loc main_arg2)) (ix2 l (0 : Fin 1))) k := by
  rw [iblk6_eq, V3_eq]
  refine (transpose_ix2_apply _ transposes_S2x1_S1x2_1_0 0 k).trans ?_
  exact pw_apply (m ((c : Thread nD τ).loc main_arg7)) (m ((c : Thread nD τ).loc main_arg2)) k 0

/-- A prediction from a tile whose entries are known to be the arrays' entries. -/
theorem yhat_of_rows (x0 : FVec Ideal S2048x784 .f32) (x2 : FVec Ideal S784x100 .bf16) (x3 : FVec Ideal S1x100 .f32)
    (x4 : FVec Ideal S100x1 .bf16) (x5 : FVec Ideal S1x1 .f32) (r : Fin 2048)
    (A0 : S131072x784.Idx → EReal) (A3 : S100x784.Idx → EReal) (A4 : S100.Idx → EReal) (A5 : S1x100.Idx → EReal) (A6 : S1.Idx → EReal)
    (b : Fin 131072)
    (h0 : ∀ d, x0 (ix2 r d) = A0 (ix2 b d)) (h2 : ∀ d j, x2 (ix2 d j) = A3 (ix2 j d)) (h3 : ∀ j, x3 (ix2 (0 : Fin 1) j) = A4 (ix1 j))
    (h4 : ∀ j, x4 (ix2 j (0 : Fin 1)) = A5 (ix2 (0 : Fin 1) j)) (h5 : x5 (ix2 (0 : Fin 1) (0 : Fin 1)) = A6 (ix1 (0 : Fin 1))) :
    k0_pay5 (F := Ideal) x0 x2 x3 x4 x5 (ix2 r (0 : Fin 1))
      = Spec.yhat (fun d => A0 (ix2 b d)) (fun d j => A3 (ix2 j d)) (fun j => A4 (ix1 j)) (fun j => A5 (ix2 (0 : Fin 1) j)) (A6 (ix1 (0 : Fin 1))) := by
  rw [pay5_apply]
  simp only [h0, h2, h3, h4, h5]

/-- Row `r` of step `t`'s tile is sample `2048 t + r`: its prediction. -/
theorem step_yh (c : Dev nD) (t : Fin cfg0.N) (r : Fin 2048) (hb : 2048 * t.val + r.val < 131072) :
    k0_pay5 (F := Ideal) (iblk m c 0 t) (iblk m c 2 t) (iblk m c 3 t) (iblk m c 4 t) (iblk m c 5 t) (ix2 r (0 : Fin 1))
      = yh m c ⟨2048 * t.val + r.val, hb⟩ :=
  yhat_of_rows (iblk m c 0 t) (iblk m c 2 t) (iblk m c 3 t) (iblk m c 4 t) (iblk m c 5 t) r
    (m ((c : Thread nD τ).loc main_arg0)) (m ((c : Thread nD τ).loc main_arg3)) (m ((c : Thread nD τ).loc main_arg4)) (m ((c : Thread nD τ).loc main_arg5)) (m ((c : Thread nD τ).loc main_arg6)) ⟨2048 * t.val + r.val, hb⟩
    (fun d => iblk0_apply m c t r d hb) (fun d j => x2_at m c t d j) (fun j => x3_at m c t j) (fun j => x4_at m c t j) (x5_at m c t)

/-- Step `t`'s first local sum is the tile's sum of squared predictions. -/
theorem tile7 (c : Dev nD) (t : Fin cfg0.N) (j : S1x1.Idx) :
    k0_pay6 (F := Ideal) (iblk m c 0 t) (iblk m c 2 t) (iblk m c 3 t) (iblk m c 4 t) (iblk m c 5 t) j = tileSum (sq m c) t.val := by
  have hN : t.val < 64 := lt_of_lt_of_eq t.isLt (show cfg0.N = 64 from N_0)
  refine (pay6_apply (iblk m c 0 t) (iblk m c 2 t) (iblk m c 3 t) (iblk m c 4 t) (iblk m c 5 t) j).trans ?_
  unfold tileSum
  rw [← Fin.sum_univ_eq_sum_range (fun r => sq m c (2048 * t.val + r)) 2048]
  refine Finset.sum_congr rfl fun r _ => ?_
  have hb : 2048 * t.val + r.val < 131072 := by have := r.isLt; omega
  rw [step_yh m c t r hb]
  unfold sq
  rw [dif_pos hb]

/-- Step `t`'s second local sum is the tile's sum of prediction times projected attribute. -/
theorem tile8 (c : Dev nD) (t : Fin cfg0.N) (j : S1.Idx) :
    k0_pay7 (F := Ideal) (iblk m c 0 t) (iblk m c 1 t) (iblk m c 2 t) (iblk m c 3 t) (iblk m c 4 t) (iblk m c 5 t) (iblk m c 6 t) j
      = tileSum (cr m c) t.val := by
  have hN : t.val < 64 := lt_of_lt_of_eq t.isLt (show cfg0.N = 64 from N_0)
  refine (pay7_apply (iblk m c 0 t) (iblk m c 1 t) (iblk m c 2 t) (iblk m c 3 t) (iblk m c 4 t) (iblk m c 5 t) (iblk m c 6 t) j).trans ?_
  unfold tileSum
  rw [← Fin.sum_univ_eq_sum_range (fun r => cr m c (2048 * t.val + r)) 2048]
  refine Finset.sum_congr rfl fun r _ => ?_
  have hb : 2048 * t.val + r.val < 131072 := by have := r.isLt; omega
  rw [step_yh m c t r hb]
  unfold cr pj
  rw [dif_pos hb]
  refine congrArg (_ * ·) (congrArg₂ Spec.proj (funext fun k => iblk1_apply m c t r k hb) (funext fun k => x6_at m c t k))

/-- At the first step of a sweep both accumulators hold that step's local sums. -/
theorem at_first (c : Dev nD) (t : Fin cfg0.N) (h0 : t.val % 32 = 0) :
    outsAt0 m c t.val t.isLt = ((fun _ => running (tileSum (sq m c)) t.val : Vec Ideal S1x1x1 .f32),
      (fun _ => running (tileSum (cr m c)) t.val : Vec Ideal S1x1x1 .f32)) := by
  rw [outsAt0_A m c t h0]
  refine congrArg₂ Prod.mk ?_ ?_
  · refine (out_A7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t)).trans ?_
    funext j
    refine (pay1_apply _ _ j).trans ?_
    rw [pay3_apply, tile7 m c t, running_first _ h0, Ideal.ofBits_zero_f32, zero_add]
  · refine (out_A8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t)).trans ?_
    funext j
    refine (pay2_apply _ _ j).trans ?_
    rw [pay4_apply, tile8 m c t, running_first _ h0, Ideal.ofBits_zero_f32, zero_add]

/-- After every step both accumulators hold the running totals of their sweep. -/
theorem outsAt_eq (c : Dev nD) : ∀ (n : ℕ) (h : n < cfg0.N),
    outsAt0 m c n h = ((fun _ => running (tileSum (sq m c)) n : Vec Ideal S1x1x1 .f32),
      (fun _ => running (tileSum (cr m c)) n : Vec Ideal S1x1x1 .f32))
  | 0, h => at_first m c ⟨0, h⟩ rfl
  | n + 1, h => by
    by_cases h0 : (n + 1) % 32 = 0
    · exact at_first m c ⟨n + 1, h⟩ h0
    · rw [outsAt0_B m c ⟨n + 1, h⟩ h0]
      refine congrArg₂ Prod.mk ?_ ?_
      · refine (out_B7 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) _ _).trans ?_
        funext j
        refine (pay1_apply _ _ j).trans ?_
        show (outsAt0 m c n _).1 (ix3 0 0 0) + _ = _
        rw [outsAt_eq c n, tile7 m c ⟨n + 1, h⟩]
        exact (running_step _ h0).symm
      · refine (out_B8 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) _ _).trans ?_
        funext j
        refine (pay2_apply _ _ j).trans ?_
        show (outsAt0 m c n _).2 (ix3 0 0 0) + _ = _
        rw [outsAt_eq c n, tile8 m c ⟨n + 1, h⟩]
        exact (running_step _ h0).symm

/-- Entry q of the first result array: sweep q's total of squared predictions. -/
def res7 (c : Dev nD) : Buf (Elt Ideal) ((c : Thread nD τ).loc main_v10_0) :=
  show S2x1x1.Idx → EReal from fun i => running (tileSum (sq m c)) (32 * (i 0).val + 31)

/-- The write-back after the last step of a core's sweep writes that core's total. -/
theorem flushed7_eq (c : Dev nD) (t : Fin cfg0.N) (hf : (cfg0.win 7).flush t = true) :
    (dats m 0 c).flushed 7 t = ((cfg0.win 7).blk t).view.read (Elt Ideal) (res7 m c) := by
  have h31 : t.val % 32 = 31 := (flush0_7 t).mp hf
  obtain ⟨-, -, -, -, -, -, -, -, -, -, -, -, -, -, e0, e1, e2, -⟩ := idx_facts t
  show (cfg0.win 7).cut (grid0.coords t) ((dats m 0 c).after 7 t) = _
  rw [after0_7, outsAt_eq]
  funext j
  rw [View.read_apply]
  show running (tileSum (sq m c)) t.val = res7 m c (((cfg0.win 7).blk t).view.emb j)
  unfold res7
  have e : ((((cfg0.win 7).blk t).view.emb j) 0).val = win0_7.index t (0 : Fin 3) * 1 + 1 * (j 0).val := rfl
  have hj : (j 0).val < 1 := (j 0).isLt
  refine congrArg _ ?_
  rw [e, e0]
  omega

/-- Every entry of the two-entry result array is written by the last step of its core's sweep. -/
theorem cover7 (c : Dev nD) (i : S2x1x1.Idx) :
    ∃ t : Fin cfg0.N, (cfg0.win 7).flush t = true ∧ i ∈ ((cfg0.win 7).blk t).view.set := by
  have hi0 : (i 0).val < 2 := (i 0).isLt
  have hi1 : (i 1).val < 1 := (i 1).isLt
  have hi2 : (i 2).val < 1 := (i 2).isLt
  have hN : cfg0.N = 64 := N_0
  have ht : 32 * (i 0).val + 31 < cfg0.N := by rw [hN]; omega
  obtain ⟨-, -, -, -, -, -, -, -, -, -, -, -, -, -, e0, e1, e2, -⟩ := idx_facts ⟨32 * (i 0).val + 31, ht⟩
  refine ⟨⟨32 * (i 0).val + 31, ht⟩, (flush0_7 _).mpr (by show (32 * (i 0).val + 31) % 32 = 31; omega), ?_⟩
  show i ∈ ((View.whole main_v10_0).slice (win0_7.rect ⟨32 * (i 0).val + 31, ht⟩)).set
  rw [View.set_slice_whole, Rect.mem_set_unit]
  intro a
  match a with
  | ⟨0, _⟩ =>
    show win0_7.index ⟨32 * (i 0).val + 31, ht⟩ (0 : Fin 3) * 1 ≤ (i 0).val ∧ (i 0).val < win0_7.index ⟨32 * (i 0).val + 31, ht⟩ (0 : Fin 3) * 1 + 1
    rw [e0]
    show (32 * (i 0).val + 31) / 32 * 1 ≤ (i 0).val ∧ (i 0).val < (32 * (i 0).val + 31) / 32 * 1 + 1
    omega
  | ⟨1, _⟩ =>
    show win0_7.index ⟨32 * (i 0).val + 31, ht⟩ (1 : Fin 3) * 1 ≤ (i 1).val ∧ (i 1).val < win0_7.index ⟨32 * (i 0).val + 31, ht⟩ (1 : Fin 3) * 1 + 1
    rw [e1]
    omega
  | ⟨2, _⟩ =>
    show win0_7.index ⟨32 * (i 0).val + 31, ht⟩ (2 : Fin 3) * 1 ≤ (i 2).val ∧ (i 2).val < win0_7.index ⟨32 * (i 0).val + 31, ht⟩ (2 : Fin 3) * 1 + 1
    rw [e2]
    omega

/-- So the result array ends holding the two cores' totals. -/
theorem final7 (c : Dev nD) : (dats m 0 c).arrAt 7 cfg0.N = res7 m c :=
  (dats m 0 c).arrAt_eq_of_cover 7 (res7 m c) (flushed7_eq m c) (cover7 c)

/-- Entry q of the second result array: sweep q's total of prediction times projected attribute. -/
def res8 (c : Dev nD) : Buf (Elt Ideal) ((c : Thread nD τ).loc main_v10_1) :=
  show S2x1x1.Idx → EReal from fun i => running (tileSum (cr m c)) (32 * (i 0).val + 31)

/-- The write-back after the last step of a core's sweep writes that core's total. -/
theorem flushed8_eq (c : Dev nD) (t : Fin cfg0.N) (hf : (cfg0.win 8).flush t = true) :
    (dats m 0 c).flushed 8 t = ((cfg0.win 8).blk t).view.read (Elt Ideal) (res8 m c) := by
  have h31 : t.val % 32 = 31 := (flush0_8 t).mp hf
  obtain ⟨-, -, -, -, -, -, -, -, -, -, -, -, -, -, -, -, -, e0, e1, e2⟩ := idx_facts t
  show (cfg0.win 8).cut (grid0.coords t) ((dats m 0 c).after 8 t) = _
  rw [after0_8, outsAt_eq]
  funext j
  rw [View.read_apply]
  show running (tileSum (cr m c)) t.val = res8 m c (((cfg0.win 8).blk t).view.emb j)
  unfold res8
  have e : ((((cfg0.win 8).blk t).view.emb j) 0).val = win0_8.index t (0 : Fin 3) * 1 + 1 * (j 0).val := rfl
  have hj : (j 0).val < 1 := (j 0).isLt
  refine congrArg _ ?_
  rw [e, e0]
  omega

/-- Every entry of the two-entry result array is written by the last step of its core's sweep. -/
theorem cover8 (c : Dev nD) (i : S2x1x1.Idx) :
    ∃ t : Fin cfg0.N, (cfg0.win 8).flush t = true ∧ i ∈ ((cfg0.win 8).blk t).view.set := by
  have hi0 : (i 0).val < 2 := (i 0).isLt
  have hi1 : (i 1).val < 1 := (i 1).isLt
  have hi2 : (i 2).val < 1 := (i 2).isLt
  have hN : cfg0.N = 64 := N_0
  have ht : 32 * (i 0).val + 31 < cfg0.N := by rw [hN]; omega
  obtain ⟨-, -, -, -, -, -, -, -, -, -, -, -, -, -, -, -, -, e0, e1, e2⟩ := idx_facts ⟨32 * (i 0).val + 31, ht⟩
  refine ⟨⟨32 * (i 0).val + 31, ht⟩, (flush0_8 _).mpr (by show (32 * (i 0).val + 31) % 32 = 31; omega), ?_⟩
  show i ∈ ((View.whole main_v10_1).slice (win0_8.rect ⟨32 * (i 0).val + 31, ht⟩)).set
  rw [View.set_slice_whole, Rect.mem_set_unit]
  intro a
  match a with
  | ⟨0, _⟩ =>
    show win0_8.index ⟨32 * (i 0).val + 31, ht⟩ (0 : Fin 3) * 1 ≤ (i 0).val ∧ (i 0).val < win0_8.index ⟨32 * (i 0).val + 31, ht⟩ (0 : Fin 3) * 1 + 1
    rw [e0]
    show (32 * (i 0).val + 31) / 32 * 1 ≤ (i 0).val ∧ (i 0).val < (32 * (i 0).val + 31) / 32 * 1 + 1
    omega
  | ⟨1, _⟩ =>
    show win0_8.index ⟨32 * (i 0).val + 31, ht⟩ (1 : Fin 3) * 1 ≤ (i 1).val ∧ (i 1).val < win0_8.index ⟨32 * (i 0).val + 31, ht⟩ (1 : Fin 3) * 1 + 1
    rw [e1]
    omega
  | ⟨2, _⟩ =>
    show win0_8.index ⟨32 * (i 0).val + 31, ht⟩ (2 : Fin 3) * 1 ≤ (i 2).val ∧ (i 2).val < win0_8.index ⟨32 * (i 0).val + 31, ht⟩ (2 : Fin 3) * 1 + 1
    rw [e2]
    omega

/-- So the result array ends holding the two cores' totals. -/
theorem final8 (c : Dev nD) : (dats m 0 c).arrAt 8 cfg0.N = res8 m c :=
  (dats m 0 c).arrAt_eq_of_cover 8 (res8 m c) (flushed8_eq m c) (cover8 c)

end Cert.KernelIdeal.Acc
end
-- ==== Proof.Tail.lean ====
/-
  The closing scalar arithmetic of the loss, and sums over small index sets.

  With  A = Σ ŷ²,  B = Σ ŷ π  and  w = Σ W²,  both programs finish with
      0.1 · ((−A) · w + 2 · B − 131072) / 131072,
  the same float words in the same order; it is carried as one function of (A, B, w) and never opened.
  The per-sample summands are also stated here as functions of the argument arrays alone, so that the two
  programs' sums can be compared term by term.
-/
import proofs.«127067_j75402445849094_2_alg».proof.Proof.Spec
import Idealize.ShloMosaic.Lib.ValueIdx
import Idealize.ShloMosaic.PureOps.Ideal.Laws

noncomputable section
open Idealize.ShloMosaic Idealize.ShloMosaic.ValueIdx

namespace Cert.Tail

/-- The scalar shape. -/
abbrev S0 : Shape := ⟨0, ![]⟩

/-- The loss from the two batch sums and the squared norm of `W`. -/
def lossTail (a b w : FVec Ideal S0 .f32) : FVec Ideal S0 .f32 :=
  Host.divf (F := Ideal)
    (mulf (F := Ideal) (constant (F := Ideal) S0 .f32 0x3DCCCCCD#32)
      (subf (F := Ideal) (addf (F := Ideal) (mulf (F := Ideal) (Host.negf (F := Ideal) a) w) (mulf (F := Ideal) (constant (F := Ideal) S0 .f32 0x40000000#32) b))
        (constant (F := Ideal) S0 .f32 0x48000000#32)))
    (constant (F := Ideal) S0 .f32 0x48000000#32)

/-- Sample `b`'s prediction from the argument arrays. -/
def yhAt (a0 : (⟨2, ![131072, 784]⟩ : Shape).Idx → EReal) (a3 : (⟨2, ![100, 784]⟩ : Shape).Idx → EReal) (a4 : (⟨1, ![100]⟩ : Shape).Idx → EReal)
    (a5 : (⟨2, ![1, 100]⟩ : Shape).Idx → EReal) (a6 : (⟨1, ![1]⟩ : Shape).Idx → EReal) (b : Fin 131072) : EReal :=
  Spec.yhat (fun d => a0 (ix2 b d)) (fun d j => a3 (ix2 j d)) (fun j => a4 (ix1 j)) (fun j => a5 (ix2 (0 : Fin 1) j)) (a6 (ix1 (0 : Fin 1)))

/-- Sample `b`'s projected attribute from the argument arrays. -/
def pjAt (a1 : (⟨2, ![131072, 2]⟩ : Shape).Idx → EReal) (a2 : (⟨2, ![2, 1]⟩ : Shape).Idx → EReal) (a7 : (⟨2, ![2, 2]⟩ : Shape).Idx → EReal)
    (b : Fin 131072) : EReal :=
  Spec.proj (fun k => a1 (ix2 b k)) (Spec.pw (fun k l => a7 (ix2 k l)) (fun l => a2 (ix2 l (0 : Fin 1))))

/-- The summands of the two batch sums, as functions of a natural number (zero past the batch). -/
def sqOf (a0 : (⟨2, ![131072, 784]⟩ : Shape).Idx → EReal) (a3 : (⟨2, ![100, 784]⟩ : Shape).Idx → EReal) (a4 : (⟨1, ![100]⟩ : Shape).Idx → EReal)
    (a5 : (⟨2, ![1, 100]⟩ : Shape).Idx → EReal) (a6 : (⟨1, ![1]⟩ : Shape).Idx → EReal) : ℕ → EReal :=
  fun b => if h : b < 131072 then yhAt a0 a3 a4 a5 a6 ⟨b, h⟩ * yhAt a0 a3 a4 a5 a6 ⟨b, h⟩ else 0
def crOf (a0 : (⟨2, ![131072, 784]⟩ : Shape).Idx → EReal) (a1 : (⟨2, ![131072, 2]⟩ : Shape).Idx → EReal) (a2 : (⟨2, ![2, 1]⟩ : Shape).Idx → EReal)
    (a3 : (⟨2, ![100, 784]⟩ : Shape).Idx → EReal) (a4 : (⟨1, ![100]⟩ : Shape).Idx → EReal)
    (a5 : (⟨2, ![1, 100]⟩ : Shape).Idx → EReal) (a6 : (⟨1, ![1]⟩ : Shape).Idx → EReal) (a7 : (⟨2, ![2, 2]⟩ : Shape).Idx → EReal) : ℕ → EReal :=
  fun b => if h : b < 131072 then yhAt a0 a3 a4 a5 a6 ⟨b, h⟩ * pjAt a1 a2 a7 ⟨b, h⟩ else 0

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

/-- A sum over the index set of a 2 × 1 × 1 array is the sum over its two leading coordinates. -/
theorem sum_idx211 {M : Type*} [AddCommMonoid M] (f : (⟨3, ![2, 1, 1]⟩ : Shape).Idx → M) :
    ∑ i, f i = ∑ q : Fin 2, f (ix3 q (0 : Fin 1) (0 : Fin 1)) := by
  let e : (⟨3, ![2, 1, 1]⟩ : Shape).Idx ≃ Fin 2 :=
    ⟨fun i => i 0, fun q => ix3 q (0 : Fin 1) (0 : Fin 1),
      fun i => by
        funext a
        match a with
        | ⟨0, _⟩ => rfl
        | ⟨1, _⟩ => exact Subsingleton.elim (α := Fin 1) _ _
        | ⟨2, _⟩ => exact Subsingleton.elim (α := Fin 1) _ _,
      fun _ => rfl⟩
  rw [← Equiv.sum_comp e.symm f]
  rfl

end Cert.Tail
end
-- ==== Proof.KTail.lean ====
/-
  The kernel program's result, as a function of the argument arrays.

  After the launch the host adds up each two-entry result array, and closes with the scalar arithmetic of
  the loss. The first result array holds the two sweeps' totals of squared predictions, so its sum — the
  reduction starts from the word of +0.0 — is the sum over all 131072 samples; likewise for the second.
  The squared norm of `W` was computed by the host before the launch and is read by the closing arithmetic.
-/
import proofs.«127067_j75402445849094_2_alg».proof.Proof.KAcc
import proofs.«127067_j75402445849094_2_alg».proof.Proof.Tail

noncomputable section
open Idealize.ShloMosaic Idealize.ShloMosaic.TcCoe Idealize.SL.Sem Idealize.ShloMosaic.ValueIdx
open Idealize.ShloMosaic.Pipeline (Dat)

namespace Cert.KernelIdeal.Result
open Cert.KernelIdeal Cert.KernelIdeal.Gen Cert.KernelIdeal.Acc Cert.KernelIdeal.Blocks
open Cert.SumLaw (tileSum running runs_total)
open Cert.Tail (lossTail sqOf crOf sum_idx211)

variable (m : (ℓ : Loc nD τ sig) → Buf (Elt Ideal) ℓ) (ρ : Dev nD → PrngReg)

/-- The host's sum of a two-entry result array. -/
def sumOut (X : FVec Ideal S2x1x1 .f32) : FVec Ideal S_ .f32 :=
  Host.reduceAdd (F := Ideal) X (constant (F := Ideal) S_ .f32 0x00000000#32) reducesTo_S2x1x1_S_d0_1_2 h_S_

/-- The host's squared norm of `W`. -/
def normW (W : FVec Ideal S2x1 .f32) : FVec Ideal S_ .f32 :=
  Host.reduceAdd (F := Ideal) (mulf (F := Ideal) W W) (constant (F := Ideal) S_ .f32 0x00000000#32) reducesTo_S2x1_S_d0_1 h_S_

/-- The kernel program's result on core `c`. -/
def kres (c : Dev nD) : Buf (Elt Ideal) ((c : Thread nD τ).loc main_v19) :=
  lossTail (sumOut (res7 m c)) (sumOut (res8 m c)) (normW (m ((c : Thread nD τ).loc main_arg2)))

/-- What the lines after the launch leave in the result buffer. -/
theorem tail_eq (c : Dev nD) : Pipeline.afterTail₀ cfgs (dats m) 0 (V0 m) [hostOps1] c main_v19 = kres m c := by
  have e7 : Pipeline.withArrays (cfgs 0).spec c (V0 m c) (fun w => (dats m 0 c).arrAt w (cfgs 0).N) (Proc.devRef .tc main_v10_0) = res7 m c :=
    (Pipeline.withArrays_arr spec0 launch0.win.arr_inj c _ _ 7).trans (final7 m c)
  have e8 : Pipeline.withArrays (cfgs 0).spec c (V0 m c) (fun w => (dats m 0 c).arrAt w (cfgs 0).N) (Proc.devRef .tc main_v10_1) = res8 m c :=
    (Pipeline.withArrays_arr spec0 launch0.win.arr_inj c _ _ 8).trans (final8 m c)
  have e1 : Pipeline.withArrays (cfgs 0).spec c (V0 m c) (fun w => (dats m 0 c).arrAt w (cfgs 0).N) (Proc.devRef .tc main_v1)
      = normW (m ((c : Thread nD τ).loc main_arg2)) :=
    (Pipeline.withArrays_of_ne _ c (V0 m c) _ main_v1 (by exact (by decide : ∀ w, Pipeline.arrRef spec0 w ≠ main_v1))).trans (V1_eq m c)
  unfold Pipeline.afterTail₀
  show StableHlo.after hostOps1 _ (Proc.devRef .tc main_v19) = _
  after_results
  rw [e7, e8, e1]
  rfl

/-- The kernel program runs, leaves its result at `kres` and its arguments as they were. -/
theorem run : θ_run defs (onTc (τ := τ) (main (F := Ideal))) ⟨m, fun _ => 0, ρ⟩ (fun r => ∀ c : Dev nD,
      r.2.mem ((c.tc : Thread nD τ).loc main_v19) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v19 (Pipeline.mem_restRefs_of main_v19 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

/-- The host's sum of a two-entry array, read: the word of +0.0 plus the two entries. -/
theorem sumOut_apply (X : FVec Ideal S2x1x1 .f32) (i : S_.Idx) :
    sumOut X i = Ideal.ofBits .f32 0x00000000#32 + ∑ q : Fin 2, X (ix3 q (0 : Fin 1) (0 : Fin 1)) := by
  unfold sumOut
  simp only [Host.reduceAdd, Ideal.hostReduceAdd_def]
  refine (Ideal.hostReduceAdd_total reducesTo_S2x1x1_S_d0_1_2 (fun b => b.elim0) X _ i).trans ?_
  rw [sum_idx211]
  rfl

/-- The kernel's summands are the arrays' per-sample terms. -/
theorem sq_eq (c : Dev nD) : sq m c = sqOf (m ((c : Thread nD τ).loc main_arg0)) (m ((c : Thread nD τ).loc main_arg3))
    (m ((c : Thread nD τ).loc main_arg4)) (m ((c : Thread nD τ).loc main_arg5)) (m ((c : Thread nD τ).loc main_arg6)) := rfl
theorem cr_eq (c : Dev nD) : cr m c = crOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := rfl

/-- The sum of the first result array is the sum of the squared predictions over the whole batch. -/
theorem sum7 (c : Dev nD) (i : S_.Idx) :
    sumOut (res7 m c) i = Ideal.ofBits .f32 0x00000000#32 + ∑ b ∈ Finset.range 131072, sq m c b := by
  rw [sumOut_apply, ← runs_total (sq m c), ← Fin.sum_univ_eq_sum_range (fun q => running (tileSum (sq m c)) (32 * q + 31)) 2]
  rfl

/-- The sum of the second result array is the sum of prediction times projected attribute over the batch. -/
theorem sum8 (c : Dev nD) (i : S_.Idx) :
    sumOut (res8 m c) i = Ideal.ofBits .f32 0x00000000#32 + ∑ b ∈ Finset.range 131072, cr m c b := by
  rw [sumOut_apply, ← runs_total (cr m c), ← Fin.sum_univ_eq_sum_range (fun q => running (tileSum (cr m c)) (32 * q + 31)) 2]
  rfl

end Cert.KernelIdeal.Result
end
-- ==== Proof.RefRows.lean ====
/-
  The reference, read sample by sample on the extended reals.

  The reference computes every sample's prediction with whole-batch matrix products, spelling the logistic
  function as  1 / (1 + exp(-z));  on the extended reals that quotient IS the logistic function, the float
  word of 1.0 denoting the real 1. Its projected attribute is the batch matrix times the column  P W.
  So entry `b` of its two summand vectors is  ŷ_b · ŷ_b  and  ŷ_b · (s_b · (P W)).
-/
import proofs.«127067_j75402445849094_2_alg».proof.Proof.Gen.ReferenceIdeal.Read
import proofs.«127067_j75402445849094_2_alg».proof.Proof.Spec
import Idealize.ShloMosaic.PureOps.IdealRules

noncomputable section
open Idealize.ShloMosaic Idealize.ShloMosaic.TcCoe Idealize.SL.Sem Idealize.ShloMosaic.ValueIdx

namespace Cert.ReferenceIdeal.Rows
open Cert.ReferenceIdeal Cert.ReferenceIdeal.Read

/-- The float word of 1.0 is the real 1. -/
theorem one_f32 : Ideal.ofBits .f32 0x3F800000#32 = 1 := IdealRules.sign_bit.ideal_onePat .f32

/-! The index maps the read-at-an-index lemmas compose, at explicit coordinates. -/

theorem e17 (b : Fin 131072) : idx_main_v17 (ix1 b) = ix2 b (0 : Fin 1) :=
  funext fun a => Fin.ext (by match a with | ⟨0, _⟩ => exact Nat.div_one _ | ⟨1, _⟩ => rfl)
theorem e22 (b : Fin 131072) : idx_main_v22 (ix1 b) = ix2 b (0 : Fin 1) :=
  funext fun a => Fin.ext (by match a with | ⟨0, _⟩ => exact Nat.div_one _ | ⟨1, _⟩ => rfl)
theorem el7 (b : Fin 131072) (z : Fin 1) (k : Fin 100) : lidx_main_v7 (ix2 b z) k = ix2 b k :=
  funext fun a => Fin.ext (by match a with | ⟨0, _⟩ => rfl | ⟨1, _⟩ => rfl)
theorem er7 (b : Fin 131072) (z : Fin 1) (k : Fin 100) : ridx_main_v7 (ix2 b z) k = ix2 k z :=
  funext fun a => Fin.ext (by match a with | ⟨0, _⟩ => rfl | ⟨1, _⟩ => rfl)
theorem e6 (k : Fin 100) (z : Fin 1) : idx_main_v6 (ix2 k z) = ix2 z k :=
  funext fun a => Fin.ext (by match a with | ⟨0, _⟩ => rfl | ⟨1, _⟩ => rfl)
theorem el1 (b : Fin 131072) (k : Fin 100) (d : Fin 784) : lidx_main_v1 (ix2 b k) d = ix2 b d :=
  funext fun a => Fin.ext (by match a with | ⟨0, _⟩ => rfl | ⟨1, _⟩ => rfl)
theorem er1 (b : Fin 131072) (k : Fin 100) (d : Fin 784) : ridx_main_v1 (ix2 b k) d = ix2 d k :=
  funext fun a => Fin.ext (by match a with | ⟨0, _⟩ => rfl | ⟨1, _⟩ => rfl)
theorem e0 (d : Fin 784) (k : Fin 100) : idx_main_v0 (ix2 d k) = ix2 k d :=
  funext fun a => Fin.ext (by match a with | ⟨0, _⟩ => rfl | ⟨1, _⟩ => rfl)
theorem e3 (b : Fin 131072) (k : Fin 100) : idx_main_v3 (ix2 b k) = ix2 (0 : Fin 1) k :=
  funext fun a => Fin.ext (by match a with | ⟨0, _⟩ => rfl | ⟨1, _⟩ => rfl)
theorem e2 (z : Fin 1) (k : Fin 100) : idx_main_v2 (ix2 z k) = ix1 k :=
  funext fun a => Fin.ext (by match a with | ⟨0, _⟩ => rfl)
theorem e9 (b : Fin 131072) (z : Fin 1) : idx_main_v9 (ix2 b z) = ix2 (0 : Fin 1) (0 : Fin 1) :=
  funext fun a => Fin.ext (by match a with | ⟨0, _⟩ => rfl | ⟨1, _⟩ => rfl)
theorem e8 (y z : Fin 1) : idx_main_v8 (ix2 y z) = ix1 (0 : Fin 1) :=
  funext fun a => Fin.ext (by match a with | ⟨0, _⟩ => rfl)
theorem el21 (b : Fin 131072) (z : Fin 1) (k : Fin 2) : lidx_main_v21 (ix2 b z) k = ix2 b k :=
  funext fun a => Fin.ext (by match a with | ⟨0, _⟩ => rfl | ⟨1, _⟩ => rfl)
theorem er21 (b : Fin 131072) (z : Fin 1) (k : Fin 2) : ridx_main_v21 (ix2 b z) k = ix2 k z :=
  funext fun a => Fin.ext (by match a with | ⟨0, _⟩ => rfl | ⟨1, _⟩ => rfl)
theorem el20 (k : Fin 2) (z : Fin 1) (l : Fin 2) : lidx_main_v20 (ix2 k z) l = ix2 k l :=
  funext fun a => Fin.ext (by match a with | ⟨0, _⟩ => rfl | ⟨1, _⟩ => rfl)
theorem er20 (k : Fin 2) (z : Fin 1) (l : Fin 2) : ridx_main_v20 (ix2 k z) l = ix2 l z :=
  funext fun a => Fin.ext (by match a with | ⟨0, _⟩ => rfl | ⟨1, _⟩ => rfl)

variable (x0 : (⟨S131072x784, .f32⟩ : BufTy).Contents (Elt Ideal)) (x1 : (⟨S131072x2, .f32⟩ : BufTy).Contents (Elt Ideal))
  (x2 : (⟨S2x1, .f32⟩ : BufTy).Contents (Elt Ideal)) (x3 : (⟨S100x784, .f32⟩ : BufTy).Contents (Elt Ideal))
  (x4 : (⟨S100, .f32⟩ : BufTy).Contents (Elt Ideal)) (x5 : (⟨S1x100, .f32⟩ : BufTy).Contents (Elt Ideal))
  (x6 : (⟨S1, .f32⟩ : BufTy).Contents (Elt Ideal)) (x7 : (⟨S2x2, .f32⟩ : BufTy).Contents (Elt Ideal))

/-- Sample `b`'s prediction in the reference. -/
theorem v17_apply (b : Fin 131072) :
    val_main_v17 (F := Ideal) x0 x3 x4 x5 x6 (ix1 b)
      = Spec.yhat (fun d => x0 (ix2 b d)) (fun d j => x3 (ix2 j d)) (fun j => x4 (ix1 j)) (fun j => x5 (ix2 (0 : Fin 1) j)) (x6 (ix1 (0 : Fin 1))) := by
  rw [val_main_v17_apply, e17, val_main_v16_apply, val_main_v15_apply, val_main_cst_0_apply, val_main_v14_apply, val_main_v13_apply,
    val_main_cst_apply, val_main_v12_apply, val_main_v11_apply, val_main_v10_apply, val_main_v7_apply, val_main_v9_apply, e9,
    val_main_v8_apply, e8]
  simp only [el7, er7, val_main_v6_apply, e6, val_main_v5_apply, val_main_v4_apply, val_main_v1_apply, el1, er1, val_main_v0_apply, e0,
    val_main_v3_apply, e3, val_main_v2_apply, e2, val_main_call0_v0_apply, val_main_call0_cst_apply]
  unfold Spec.yhat
  show Ideal.div (Ideal.ofBits .f32 0x3F800000#32) (Ideal.ofBits .f32 0x3F800000#32 + Ideal.exp (-_)) = Ideal.div 1 (1 + Ideal.exp (-_))
  rw [one_f32]
  rfl

/-- Sample `b`'s projected attribute in the reference. -/
theorem v22_apply (b : Fin 131072) :
    val_main_v22 (F := Ideal) x1 x2 x7 (ix1 b)
      = Spec.proj (fun k => x1 (ix2 b k)) (Spec.pw (fun k l => x7 (ix2 k l)) (fun l => x2 (ix2 l (0 : Fin 1)))) := by
  rw [val_main_v22_apply, e22, val_main_v21_apply]
  simp only [el21, er21, val_main_v20_apply, el20, er20]
  rfl

/-- The first summand vector: the squared predictions. -/
theorem v23_apply (b : Fin 131072) :
    val_main_v23 (F := Ideal) x0 x3 x4 x5 x6 (ix1 b)
      = Spec.yhat (fun d => x0 (ix2 b d)) (fun d j => x3 (ix2 j d)) (fun j => x4 (ix1 j)) (fun j => x5 (ix2 (0 : Fin 1) j)) (x6 (ix1 (0 : Fin 1)))
        * Spec.yhat (fun d => x0 (ix2 b d)) (fun d j => x3 (ix2 j d)) (fun j => x4 (ix1 j)) (fun j => x5 (ix2 (0 : Fin 1) j)) (x6 (ix1 (0 : Fin 1))) := by
  rw [val_main_v23_apply, v17_apply]
  rfl

/-- The second summand vector: prediction times projected attribute. -/
theorem v27_apply (b : Fin 131072) :
    val_main_v27 (F := Ideal) x0 x1 x2 x3 x4 x5 x6 x7 (ix1 b)
      = Spec.yhat (fun d => x0 (ix2 b d)) (fun d j => x3 (ix2 j d)) (fun j => x4 (ix1 j)) (fun j => x5 (ix2 (0 : Fin 1) j)) (x6 (ix1 (0 : Fin 1)))
        * Spec.proj (fun k => x1 (ix2 b k)) (Spec.pw (fun k l => x7 (ix2 k l)) (fun l => x2 (ix2 l (0 : Fin 1)))) := by
  rw [val_main_v27_apply, v17_apply, v22_apply]
  rfl

end Cert.ReferenceIdeal.Rows
end
-- ==== Proof.RTail.lean ====
/-
  The reference program's result, as a function of the argument arrays.

  The reference sums its two summand vectors over the whole batch in one reduction each, started from the
  word of +0.0, and closes with the same scalar arithmetic as the kernel program.
-/
import proofs.«127067_j75402445849094_2_alg».proof.Proof.RefRows
import proofs.«127067_j75402445849094_2_alg».proof.Proof.Tail

noncomputable section
open Idealize.ShloMosaic Idealize.ShloMosaic.TcCoe Idealize.SL.Sem Idealize.ShloMosaic.ValueIdx

namespace Cert.ReferenceIdeal.Result
open Cert.ReferenceIdeal Cert.ReferenceIdeal.Read Cert.ReferenceIdeal.Rows
open Cert.Tail (lossTail sqOf crOf yhAt pjAt sum_idx1)

variable (x0 : (⟨S131072x784, .f32⟩ : BufTy).Contents (Elt Ideal)) (x1 : (⟨S131072x2, .f32⟩ : BufTy).Contents (Elt Ideal))
  (x2 : (⟨S2x1, .f32⟩ : BufTy).Contents (Elt Ideal)) (x3 : (⟨S100x784, .f32⟩ : BufTy).Contents (Elt Ideal))
  (x4 : (⟨S100, .f32⟩ : BufTy).Contents (Elt Ideal)) (x5 : (⟨S1x100, .f32⟩ : BufTy).Contents (Elt Ideal))
  (x6 : (⟨S1, .f32⟩ : BufTy).Contents (Elt Ideal)) (x7 : (⟨S2x2, .f32⟩ : BufTy).Contents (Elt Ideal))

/-- The reference's result is the closing arithmetic of its two batch sums and the squared norm of `W`. -/
theorem result_eq : val_main_v33 (F := Ideal) x0 x1 x2 x3 x4 x5 x6 x7
    = lossTail (val_main_v24 (F := Ideal) x0 x3 x4 x5 x6) (val_main_v28 (F := Ideal) x0 x1 x2 x3 x4 x5 x6 x7) (val_main_v19 (F := Ideal) x2) := rfl

/-- The first batch sum. -/
theorem sum24 (i : S_.Idx) :
    val_main_v24 (F := Ideal) x0 x3 x4 x5 x6 i = Ideal.ofBits .f32 0x00000000#32 + ∑ b ∈ Finset.range 131072, sqOf x0 x3 x4 x5 x6 b := by
  rw [val_main_v24_apply, val_main_cst_2_apply, sum_idx1, ← Fin.sum_univ_eq_sum_range (sqOf x0 x3 x4 x5 x6) 131072]
  refine congrArg (_ + ·) (Finset.sum_congr rfl fun b _ => ?_)
  rw [v23_apply]
  unfold sqOf
  rw [dif_pos b.isLt]
  rfl

/-- The second batch sum. -/
theorem sum28 (i : S_.Idx) :
    val_main_v28 (F := Ideal) x0 x1 x2 x3 x4 x5 x6 x7 i
      = Ideal.ofBits .f32 0x00000000#32 + ∑ b ∈ Finset.range 131072, crOf x0 x1 x2 x3 x4 x5 x6 x7 b := by
  rw [val_main_v28_apply, val_main_cst_3_apply, sum_idx1, ← Fin.sum_univ_eq_sum_range (crOf x0 x1 x2 x3 x4 x5 x6 x7) 131072]
  refine congrArg (_ + ·) (Finset.sum_congr rfl fun b _ => ?_)
  rw [v27_apply]
  unfold crOf
  rw [dif_pos b.isLt]
  rfl

end Cert.ReferenceIdeal.Result
end
-- ==== Proof.Bridge.lean ====
/-
  The two programs' results are one function of the argument arrays.

  Both are the closing arithmetic applied to two batch sums and the squared norm of `W`. The kernel
  program's first sum is the word of +0.0 plus the two sweeps' totals, which regroup into the sum of the
  squared predictions over all 131072 samples; the reference's is the word of +0.0 plus that same sum taken
  in one reduction. The same holds for the second sum, and the squared norm of `W` is computed alike.
  Only reassociation of finite sums on the extended reals is used: no entry needs to be finite.
-/
import proofs.«127067_j75402445849094_2_alg».proof.Proof.KTail
import proofs.«127067_j75402445849094_2_alg».proof.Proof.RTail

noncomputable section
open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ)

/-- The reference's result at the kernel program's argument arrays is the kernel program's result. -/
theorem result_eq (c : Dev Cert.KernelIdeal.nD) :
    Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Result.kres m c := by
  rw [Cert.ReferenceIdeal.Result.result_eq]
  unfold Cert.KernelIdeal.Result.kres
  refine congr (congr (congrArg Cert.Tail.lossTail ?_) ?_) ?_
  · funext i
    rw [Cert.ReferenceIdeal.Result.sum24, Cert.KernelIdeal.Result.sum7, Cert.KernelIdeal.Result.sq_eq]
  · funext i
    rw [Cert.ReferenceIdeal.Result.sum28, Cert.KernelIdeal.Result.sum8, Cert.KernelIdeal.Result.cr_eq]
  · rfl

end Cert.Bridge
end
-- ==== Proof.lean ====
/-
  The certificate: a fairness-regularizer loss computed by a tiled two-core kernel against its plain reference.

  Both programs compute, for 131072 samples,
      0.1 · ( −(Σ_b ŷ_b²) · ‖W‖² + 2 · Σ_b ŷ_b · (s_b · (P W)) − 131072 ) / 131072,
  with  ŷ_b  the prediction of a two-layer network (a rectifier between the layers, the logistic function last).
  The kernel sweeps the batch in 64 tiles of 2048 samples, 32 tiles per core, keeps two running totals per
  core in one-element blocks, and the host adds the two cores' totals; the reference takes each sum in one
  reduction over the batch. On the extended reals the two agree by reassociating finite sums: the
  precondition (finite inputs) is not needed for the equality and is never opened.

  The three frame claims are the generated frame runs (the reference's from its generated run); the
  idealization rewrote nothing, so the preservation claim is trivial; the value claim is assembled from the
  kernel program's run (its result as a function of the arguments), the reference's run, and the equality of
  the two functions.
-/
import proofs.«127067_j75402445849094_2_alg».proof.Defs
import proofs.«127067_j75402445849094_2_alg».proof.Proof.Gen.Kernel
import proofs.«127067_j75402445849094_2_alg».proof.Proof.Gen.Kernel.Skeleton
import proofs.«127067_j75402445849094_2_alg».proof.Proof.Gen.Kernel.Launch
import proofs.«127067_j75402445849094_2_alg».proof.Proof.Gen.Kernel.Points
import proofs.«127067_j75402445849094_2_alg».proof.Proof.Gen.Kernel.Frame
import proofs.«127067_j75402445849094_2_alg».proof.Proof.Gen.KernelIdeal
import proofs.«127067_j75402445849094_2_alg».proof.Proof.Gen.KernelIdeal.Skeleton
import proofs.«127067_j75402445849094_2_alg».proof.Proof.Gen.KernelIdeal.Launch
import proofs.«127067_j75402445849094_2_alg».proof.Proof.Gen.KernelIdeal.Points
import proofs.«127067_j75402445849094_2_alg».proof.Proof.Gen.KernelIdeal.Frame
import proofs.«127067_j75402445849094_2_alg».proof.Proof.Gen.ReferenceIdeal
import proofs.«127067_j75402445849094_2_alg».proof.Proof.Gen.Pre_finite_inputs
import proofs.«127067_j75402445849094_2_alg».proof.Proof.Gen.ReferenceIdeal.Run
import proofs.«127067_j75402445849094_2_alg».proof.Proof.Gen.ReferenceIdeal.Read
import proofs.«127067_j75402445849094_2_alg».proof.Proof.Bridge
import Idealize.ShloMosaic.Adequacy
import Idealize.ShloMosaic.Init

noncomputable section

namespace Cert.Proof

open Idealize.ShloMosaic Idealize.SL.Sem Cert.Kernel

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read on the extended reals: nothing was rewritten. -/
theorem preserves : Cert.preserves_Kernel_KernelIdeal := trivial

/-- From memories agreeing on the arguments both programs end with the same loss. -/
theorem algebraic : Cert.algebraic_KernelIdeal_ReferenceIdeal := by
  intro m ρ m' ρ' _ hagree
  refine ⟨fun c => Cert.KernelIdeal.Result.kres m c, Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7⟩ := hagree c
  refine ((h c).1.trans (Cert.ReferenceIdeal.Read.val_main_v33_eq _ _ _ _ _ _ _ _)).trans ?_
  rw [a0, a1, a2, a3, a4, a5, a6, a7]
  exact Cert.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
